-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 77
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x64, .f32⟩
  | .hbm, ⟨60, _⟩ => ⟨S100000x64, .bf16⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .bf16⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S1x64, .f32⟩
  | .hbm, ⟨76, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S5000x128, .f32⟩
  | .local _ .vmem, ⟨28, _⟩ => ⟨S5000x128, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S128x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  The program is four pipelined regions among stretches of host operations. Every weakly fair execution from the
  launch memory terminates without a fault, and the final memory holds, at every buffer that is not scoped to a
  region, the contents obtained by folding the host operations and the regions' write-backs from the launch memory
  in program order. Read at the result buffer this names the result; read at an argument it gives the argument back,
  since nothing writes an argument.
-/
import proofs.«179563_j74792560492685_2_alg».proof.Proof.PatchedKernelIdealFrame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and each argument ends as launched. -/
theorem run_value : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Gen

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  What each kernel body stores, entry by entry, at exact extended-real values.

  A block of 5000 rows is processed at a time. With h the block of node features, a the block of summed neighbour
  features, d the column of reciprocal degrees, Ws and Wn the two weight matrices and b the bias row:
    the two hidden layers store   max ((h Ws)(p,q) + (a Wn)(p,q) · d(p) + b(q), 0),
    the projection stores         (h W)(p,q),
    the last layer stores         (h Ws)(p,q) + g(p,q) · d(p) + b(q)     (g the summed projected neighbours),
  each matrix product the plain sum over the 128 contraction positions: rounding the operands to a shorter float
  format on the way into the product changes nothing at exact values, and a product accumulated into zero is the sum.
-/
import proofs.«179563_j74792560492685_2_alg».proof.Proof.Gen.KernelIdeal.Skeleton
import proofs.«179563_j74792560492685_2_alg».proof.Proof.LibDense
import proofs.«179563_j74792560492685_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-! ## Where the two matrix products read their operands -/

/-- The product's left operand is read at the output's row and the contraction position. -/
theorem d128_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d128_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand is read at the contraction position and the output's column. -/
theorem d128_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem d128_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product's left operand is read at the output's row and the contraction position. -/
theorem d64_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem d64_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
/-- The right operand is read at the contraction position and the output's column. -/
theorem d64_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem d64_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The zero word denotes zero. -/
theorem zero_word : Ideal.ofBits .f32 0x00000000#32 = 0 := Ideal.ofBits_zero_f32

/-! ## The hidden layers' body (both hidden layers compute the same thing) -/

/-- The first hidden layer's stored value at row p, column q. -/
theorem hidden0_apply (x0 x1 : Vec Ideal S5000x128 .f32) (x3 x4 : Vec Ideal S128x128 .f32) (x2 : Vec Ideal S5000x1 .f32)
    (x5 : Vec Ideal S1x128 .f32) (p : Fin 5000) (q : Fin 128) :
    k0_pay1 (F := Ideal) x0 x1 x3 x4 x2 x5 (ix2 p q)
      = max ((∑ k : Fin 128, x0 (ix2 p k) * x3 (ix2 k q)) + (∑ k : Fin 128, x1 (ix2 p k) * x4 (ix2 k q)) * x2 (ix2 p 0)
          + x5 (ix2 0 q)) 0 := by
  unfold k0_pay1
  simp only [shapeCast_self]
  rw [maximumf_apply, addf_apply, addf_apply, mulf_apply, broadcast_apply, broadcastTo_a1_ab_apply, broadcastTo_1b_ab_apply]
  simp only [matmul]
  rw [(matmul_zero_plain_apply dot_S5000x128_S128x128_S5000x128_1_0_0_1_n_n none rfl rfl d128_l0 d128_l1 d128_r0 d128_r1 _ _ p q), (matmul_zero_plain_apply dot_S5000x128_S128x128_S5000x128_1_0_0_1_n_n none rfl rfl d128_l0 d128_l1 d128_r0 d128_r1 _ _ p q)]
  simp only [truncf_apply]
  rw [show (FloatOps.ofBits .f32 0x00000000#32 : Ideal .f32) = 0 from zero_word]

/-- The second hidden layer's stored value at row p, column q. -/
theorem hidden1_apply (x0 x1 : Vec Ideal S5000x128 .f32) (x3 x4 : Vec Ideal S128x128 .f32) (x2 : Vec Ideal S5000x1 .f32)
    (x5 : Vec Ideal S1x128 .f32) (p : Fin 5000) (q : Fin 128) :
    k1_pay1 (F := Ideal) x0 x1 x3 x4 x2 x5 (ix2 p q)
      = max ((∑ k : Fin 128, x0 (ix2 p k) * x3 (ix2 k q)) + (∑ k : Fin 128, x1 (ix2 p k) * x4 (ix2 k q)) * x2 (ix2 p 0)
          + x5 (ix2 0 q)) 0 := by
  unfold k1_pay1
  simp only [shapeCast_self]
  rw [maximumf_apply, addf_apply, addf_apply, mulf_apply, broadcast_apply, broadcastTo_a1_ab_apply, broadcastTo_1b_ab_apply]
  simp only [matmul]
  rw [(matmul_zero_plain_apply dot_S5000x128_S128x128_S5000x128_1_0_0_1_n_n none rfl rfl d128_l0 d128_l1 d128_r0 d128_r1 _ _ p q), (matmul_zero_plain_apply dot_S5000x128_S128x128_S5000x128_1_0_0_1_n_n none rfl rfl d128_l0 d128_l1 d128_r0 d128_r1 _ _ p q)]
  simp only [truncf_apply]
  rw [show (FloatOps.ofBits .f32 0x00000000#32 : Ideal .f32) = 0 from zero_word]

/-! ## The projection's body -/

/-- The projection's stored value at row p, column q. -/
theorem project_apply (x0 : Vec Ideal S5000x128 .f32) (x3 : Vec Ideal S128x64 .f32) (p : Fin 5000) (q : Fin 64) :
    k2_pay1 (F := Ideal) x0 x3 (ix2 p q) = ∑ k : Fin 128, x0 (ix2 p k) * x3 (ix2 k q) := by
  unfold k2_pay1
  simp only [shapeCast_self]
  simp only [matmul]
  rw [(matmul_zero_plain_apply dot_S5000x128_S128x64_S5000x64_1_0_0_1_n_n none rfl rfl d64_l0 d64_l1 d64_r0 d64_r1 _ _ p q)]
  simp only [truncf_apply]

/-! ## The last layer's body -/

/-- The last layer's stored value at row p, column q. -/
theorem final_apply (x0 : Vec Ideal S5000x128 .f32) (x3 : Vec Ideal S128x64 .f32) (x6 : Vec Ideal S5000x64 .f32)
    (x8 : Vec Ideal S5000x1 .f32) (x13 : Vec Ideal S1x64 .f32) (p : Fin 5000) (q : Fin 64) :
    k3_pay1 (F := Ideal) x0 x3 x6 x8 x13 (ix2 p q)
      = (∑ k : Fin 128, x0 (ix2 p k) * x3 (ix2 k q)) + x6 (ix2 p q) * x8 (ix2 p 0) + x13 (ix2 0 q) := by
  unfold k3_pay1
  simp only [shapeCast_self]
  rw [addf_apply, addf_apply, mulf_apply, broadcastTo_a1_ab_apply, broadcastTo_1b_ab_apply]
  simp only [matmul]
  rw [(matmul_zero_plain_apply dot_S5000x128_S128x64_S5000x64_1_0_0_1_n_n none rfl rfl d64_l0 d64_l1 d64_r0 d64_r1 _ _ p q)]
  simp only [truncf_apply]

end Cert.KernelIdeal.Body

end
-- ==== Proof.Spec.lean ====
/-
  The three-layer neighbourhood-averaging network, entry by entry, at exact extended-real values.

  100000 nodes carry 128 features; each layer adds to a node's own features times one weight matrix the average
  of its in-neighbours' features times another, plus a bias, the two hidden layers clipping at zero. The average is
  the neighbours' sum times the reciprocal d of the in-degree clamped at one. Two arrangements of one layer appear:
    scale first     own · Ws + (sum · d) · Wn + b      (the sum is scaled row by row, then multiplied by Wn),
    scale last      own · Ws + (sum · Wn) · d + b      (the product with Wn is scaled row by row),
  and for the last layer a third, in which the neighbours are multiplied by Wn BEFORE they are summed over the edges.
  All are written here over literal index types: n a node, j an output feature, k a contraction position.
-/
import Idealize.ShloMosaic.PureOps.Ideal
import Idealize.ShloMosaic.Lib.ValueIdx

noncomputable section

namespace Cert.Sage

open Idealize.ShloMosaic Idealize.ShloMosaic.ValueIdx

/-- Node features, 128 wide. -/
abbrev A128 := (⟨2, ![100000, 128]⟩ : Shape).Idx → EReal
/-- Node features, 64 wide. -/
abbrev A64 := (⟨2, ![100000, 64]⟩ : Shape).Idx → EReal
/-- One value per node, kept as a column. -/
abbrev Col := (⟨2, ![100000, 1]⟩ : Shape).Idx → EReal
abbrev W128 := (⟨2, ![128, 128]⟩ : Shape).Idx → EReal
abbrev W64 := (⟨2, ![128, 64]⟩ : Shape).Idx → EReal
abbrev Row128 := (⟨2, ![1, 128]⟩ : Shape).Idx → EReal
abbrev Row64 := (⟨2, ![1, 64]⟩ : Shape).Idx → EReal
abbrev Vec128 := (⟨1, ![128]⟩ : Shape).Idx → EReal
abbrev Vec64 := (⟨1, ![64]⟩ : Shape).Idx → EReal

/-! ## Scale last: the product with Wn is scaled by d -/

/-- A hidden layer, scale last, bias given as a one-row matrix: entry (n, j). -/
def hiddenE (h agg : A128) (d : Col) (Ws Wn : W128) (b : Row128) (n : Fin 100000) (j : Fin 128) : EReal :=
  max ((∑ k : Fin 128, h (ix2 n k) * Ws (ix2 k j)) + (∑ k : Fin 128, agg (ix2 n k) * Wn (ix2 k j)) * d (ix2 n 0)
    + b (ix2 0 j)) 0

/-- The same as a whole array. -/
def hiddenK (h agg : A128) (d : Col) (Ws Wn : W128) (b : Row128) : A128 :=
  fun i => hiddenE h agg d Ws Wn b (i 0) (i 1)

/-- The projection by a 128 x 64 matrix: entry (n, j). -/
def projE (h : A128) (W : W64) (n : Fin 100000) (j : Fin 64) : EReal :=
  ∑ k : Fin 128, h (ix2 n k) * W (ix2 k j)

def projK (h : A128) (W : W64) : A64 := fun i => projE h W (i 0) (i 1)

/-- The last layer with the neighbours projected before they were summed (g is that sum): entry (n, j). -/
def finalE (h : A128) (g : A64) (d : Col) (Ws : W64) (b : Row64) (n : Fin 100000) (j : Fin 64) : EReal :=
  (∑ k : Fin 128, h (ix2 n k) * Ws (ix2 k j)) + g (ix2 n j) * d (ix2 n 0) + b (ix2 0 j)

def finalK (h : A128) (g : A64) (d : Col) (Ws : W64) (b : Row64) : A64 :=
  fun i => finalE h g d Ws b (i 0) (i 1)

/-! ## Scale first: the summed neighbours are scaled by d, then multiplied by Wn -/

/-- A hidden layer, scale first, bias given as a vector: entry (n, j). -/
def refHiddenE (h agg : A128) (d : Col) (Ws Wn : W128) (b : Vec128) (n : Fin 100000) (j : Fin 128) : EReal :=
  max ((∑ k : Fin 128, h (ix2 n k) * Ws (ix2 k j)) + (∑ k : Fin 128, (agg (ix2 n k) * d (ix2 n 0)) * Wn (ix2 k j))
    + b (ix1 j)) 0

/-- The last layer, scale first, no clipping: entry (n, j). -/
def refFinalE (h agg : A128) (d : Col) (Ws Wn : W64) (b : Vec64) (n : Fin 100000) (j : Fin 64) : EReal :=
  (∑ k : Fin 128, h (ix2 n k) * Ws (ix2 k j)) + (∑ k : Fin 128, (agg (ix2 n k) * d (ix2 n 0)) * Wn (ix2 k j))
    + b (ix1 j)

theorem hiddenK_ix2 (h agg : A128) (d : Col) (Ws Wn : W128) (b : Row128) (n : Fin 100000) (j : Fin 128) :
    hiddenK h agg d Ws Wn b (ix2 n j) = hiddenE h agg d Ws Wn b n j := rfl

theorem projK_ix2 (h : A128) (W : W64) (n : Fin 100000) (j : Fin 64) : projK h W (ix2 n j) = projE h W n j := rfl

theorem finalK_ix2 (h : A128) (g : A64) (d : Col) (Ws : W64) (b : Row64) (n : Fin 100000) (j : Fin 64) :
    finalK h g d Ws b (ix2 n j) = finalE h g d Ws b n j := rfl

end Cert.Sage

end
-- ==== Proof.Regions.lean ====
/-
  Each region's output array as one function of the arrays the region finds.

  A region runs its body once per block of 5000 node rows: the row-tiled operands are read block by block, the weight
  matrices and the bias row whole at every point, and what a point writes back is rows 5000 t … 5000 t + 4999 of the
  output. Row r = 5000 t + p of the output therefore depends on row r of each row-tiled operand, and the twenty
  blocks tile the 100000 rows, so the output array after the region is the layer's formula applied to whole arrays.
-/
import proofs.«179563_j74792560492685_2_alg».proof.Proof.PatchedKernelIdealFrame
import proofs.«179563_j74792560492685_2_alg».proof.Proof.Payload
import proofs.«179563_j74792560492685_2_alg».proof.Proof.Spec
import Idealize.ShloMosaic.Lib.Pipeline.Value

set_option maxRecDepth 16384

noncomputable section

namespace Cert.KernelIdeal.Blocks

open Idealize.ShloMosaic Idealize.ShloMosaic.ValueIdx Idealize.ShloMosaic.TcCoe Idealize.SL.Sem
open Cert.KernelIdeal Cert.KernelIdeal.Gen Cert.Sage
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

theorem lt0 : ∀ t : Fin cfg0.N, t.val < 20 := (by decide +kernel : ∀ t : Fin grid0.N, _)
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
/-- Every block row of the output is some point's. -/
theorem onto0 : ∀ b : Fin 20, ∃ t : Fin cfg0.N, t.val = b.val :=
  (by decide +kernel : ∀ b : Fin 20, ∃ t : Fin grid0.N, t.val = b.val)

/-- Region 0, window 0: the block at a point is the 5000 rows starting at 5000 times the point. -/
theorem blk0_0 (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → EReal) k := by
  have h0 : win0_0.index t (0 : Fin 2) = t.val := (idx0_0 t).1
  have h1 : win0_0.index t (1 : Fin 2) = 0 := (idx0_0 t).2
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [h0, hk0]; omega
  | ⟨1, _⟩ => show win0_0.index t (1 : Fin 2) * 128 + 1 * (x 1).val = (k 1).val; rw [h1, hk1]; omega

/-- Region 0, window 1: the block at a point is the 5000 rows starting at 5000 times the point. -/
theorem blk0_1 (c : Dev nD) (t : Fin cfg0.N) (x : S5000x128.Idx) (k : S100000x128.Idx)
    (hk0 : (k 0).val = 5000 * t.val + (x 0).val) (hk1 : (k 1).val = (x 1).val) :
    (iblk0 V c 1 t : Vec Ideal S5000x128 .f32) x = (V c main_v20 : S100000x128.Idx → EReal) k := by
  have h0 : win0_1.index t (0 : Fin 2) = t.val := (idx0_1 t).1
  have h1 : win0_1.index t (1 : Fin 2) = 0 := (idx0_1 t).2
  unfold iblk0
  rw [View.read_apply]
  show V c main_v20 _ = V c main_v20 _
  congr 1
  funext a
  apply Fin.ext
  match a with
  | ⟨0, _⟩ => show win0_1.index t (0 : Fin 2) * 5000 + 1 * (x 0).val = (k 0).val; rw [h0, hk0]; omega
  | ⟨1, _⟩ => show win0_1.index t (1 : Fin 2) * 128 + 1 * (x 1).val = (k 1).val; rw [h1, hk1]; omega

/-- Region 0, window 2: the block at a point is the 5000 rows starting at 5000 times the point. -/
theorem blk0_2 (c : Dev nD) (t : Fin cfg0.N) (x : S5000x1.Idx) (k : S100000x1.Idx)
    (hk0 : (k 0).val = 5000 * t.val + (x 0).val) (hk1 : (k 1).val = (x 1).val) :
    (iblk0 V c 2 t : Vec Ideal S5000x1 .f32) x = (V c main_v8 : S100000x1.Idx → EReal) k := by
  have h0 : win0_2.index t (0 : Fin 2) = t.val := (idx0_2 t).1
  have h1 : win0_2.index t (1 : Fin 2) = 0 := (idx0_2 t).2
  unfold iblk0
  rw [View.read_apply]
  show V c main_v8 _ = V c main_v8 _
  congr 1
  funext a
  apply Fin.ext
  match a with
  | ⟨0, _⟩ => show win0_2.index t (0 : Fin 2) * 5000 + 1 * (x 0).val = (k 0).val; rw [h0, hk0]; omega
  | ⟨1, _⟩ => show win0_2.index t (1 : Fin 2) * 1 + 1 * (x 1).val = (k 1).val; rw [h1, hk1]; omega

/-- Region 0, window 3: the block at a point is the whole array, at every point. -/
theorem blk0_3 (c : Dev nD) (t : Fin cfg0.N) (x : S128x128.Idx) (k : S128x128.Idx)
    (hk0 : (k 0).val = (x 0).val) (hk1 : (k 1).val = (x 1).val) :
    (iblk0 V c 3 t : Vec Ideal S128x128 .f32) x = (V c main_arg3 : S128x128.Idx → EReal) k := by
  have h0 : win0_3.index t (0 : Fin 2) = 0 := (idx0_3 t).1
  have h1 : win0_3.index t (1 : Fin 2) = 0 := (idx0_3 t).2
  unfold iblk0
  rw [View.read_apply]
  show V c main_arg3 _ = V c main_arg3 _
  congr 1
  funext a
  apply Fin.ext
  match a with
  | ⟨0, _⟩ => show win0_3.index t (0 : Fin 2) * 128 + 1 * (x 0).val = (k 0).val; rw [h0, hk0]; omega
  | ⟨1, _⟩ => show win0_3.index t (1 : Fin 2) * 128 + 1 * (x 1).val = (k 1).val; rw [h1, hk1]; omega

/-- Region 0, window 4: the block at a point is the whole array, at every point. -/
theorem blk0_4 (c : Dev nD) (t : Fin cfg0.N) (x : S128x128.Idx) (k : S128x128.Idx)
    (hk0 : (k 0).val = (x 0).val) (hk1 : (k 1).val = (x 1).val) :
    (iblk0 V c 4 t : Vec Ideal S128x128 .f32) x = (V c main_arg4 : S128x128.Idx → EReal) k := by
  have h0 : win0_4.index t (0 : Fin 2) = 0 := (idx0_4 t).1
  have h1 : win0_4.index t (1 : Fin 2) = 0 := (idx0_4 t).2
  unfold iblk0
  rw [View.read_apply]
  show V c main_arg4 _ = V c main_arg4 _
  congr 1
  funext a
  apply Fin.ext
  match a with
  | ⟨0, _⟩ => show win0_4.index t (0 : Fin 2) * 128 + 1 * (x 0).val = (k 0).val; rw [h0, hk0]; omega
  | ⟨1, _⟩ => show win0_4.index t (1 : Fin 2) * 128 + 1 * (x 1).val = (k 1).val; rw [h1, hk1]; omega

/-- Region 0, window 5: the block at a point is the whole array, at every point. -/
theorem blk0_5 (c : Dev nD) (t : Fin cfg0.N) (x : S1x128.Idx) (k : S1x128.Idx)
    (hk0 : (k 0).val = (x 0).val) (hk1 : (k 1).val = (x 1).val) :
    (iblk0 V c 5 t : Vec Ideal S1x128 .f32) x = (V c main_v21 : S1x128.Idx → EReal) k := by
  have h0 : win0_5.index t (0 : Fin 2) = 0 := (idx0_5 t).1
  have h1 : win0_5.index t (1 : Fin 2) = 0 := (idx0_5 t).2
  unfold iblk0
  rw [View.read_apply]
  show V c main_v21 _ = V c main_v21 _
  congr 1
  funext a
  apply Fin.ext
  match a with
  | ⟨0, _⟩ => show win0_5.index t (0 : Fin 2) * 1 + 1 * (x 0).val = (k 0).val; rw [h0, hk0]; omega
  | ⟨1, _⟩ => show win0_5.index t (1 : Fin 2) * 128 + 1 * (x 1).val = (k 1).val; rw [h1, hk1]; omega

/-- What a point writes back is its block of the whole-array function of the arrays the region finds. -/
theorem flushed0 (c : Dev nD) (t : Fin cfg0.N) :
    (dat0 V c).flushed 6 t = ((cfg0.win 6).blk t).view.read (Elt Ideal) (hiddenK (V c main_arg0) (V c main_v20) (V c main_v8) (V c main_arg3) (V c main_arg4) (V c main_v21)) := by
  have hlt := lt0 t
  obtain ⟨ho0, ho1⟩ := idx0_6 t
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz, View.ld_unit_zero (S := S1x128) hz]
  funext j
  rw [View.read_apply]
  obtain ⟨p, q, rfl⟩ : ∃ (p : Fin 5000) (q : Fin 128), j = ix2 p q := ⟨j 0, j 1, eq_ix2 j⟩
  have hr : 5000 * t.val + p.val < 100000 := by have := p.isLt; omega
  obtain ⟨r, hrv⟩ : ∃ r : Fin 100000, r.val = 5000 * t.val + p.val := ⟨⟨_, hr⟩, rfl⟩
  have hemb : ((cfg0.win 6).blk t).view.emb (ix2 p q) = (ix2 r q : S100000x128.Idx) := by
    funext a; apply Fin.ext
    match a with
    | ⟨0, _⟩ => show win0_6.index t (0 : Fin 2) * 5000 + 1 * p.val = r.val; rw [ho0, hrv]; omega
    | ⟨1, _⟩ => show win0_6.index t (1 : Fin 2) * 128 + 1 * q.val = q.val; rw [ho1]; omega
  rw [hemb, hiddenK_ix2]
  show k0_pay1 (iblk0 V c 0 t) (iblk0 V c 1 t) (iblk0 V c 3 t) (iblk0 V c 4 t) (iblk0 V c 2 t) (iblk0 V c 5 t) (ix2 p q) = _
  refine (Body.hidden0_apply _ _ _ _ _ _ p q).trans ?_
  unfold hiddenE
  have e0 : ∀ k : Fin 128, (iblk0 V c 0 t : Vec Ideal S5000x128 .f32) (ix2 p k) = (V c main_arg0 : S100000x128.Idx → EReal) (ix2 r k) := fun k => blk0_0 V c t _ _ (by first | exact hrv | rfl) rfl
  have e1 : ∀ k : Fin 128, (iblk0 V c 1 t : Vec Ideal S5000x128 .f32) (ix2 p k) = (V c main_v20 : S100000x128.Idx → EReal) (ix2 r k) := fun k => blk0_1 V c t _ _ (by first | exact hrv | rfl) rfl
  have e2 : (iblk0 V c 2 t : Vec Ideal S5000x1 .f32) (ix2 p 0) = (V c main_v8 : S100000x1.Idx → EReal) (ix2 r 0) := blk0_2 V c t _ _ (by first | exact hrv | rfl) rfl
  have e3 : ∀ k : Fin 128, (iblk0 V c 3 t : Vec Ideal S128x128 .f32) (ix2 k q) = (V c main_arg3 : S128x128.Idx → EReal) (ix2 k q) := fun k => blk0_3 V c t _ _ (by first | exact hrv | rfl) rfl
  have e4 : ∀ k : Fin 128, (iblk0 V c 4 t : Vec Ideal S128x128 .f32) (ix2 k q) = (V c main_arg4 : S128x128.Idx → EReal) (ix2 k q) := fun k => blk0_4 V c t _ _ (by first | exact hrv | rfl) rfl
  have e5 : (iblk0 V c 5 t : Vec Ideal S1x128 .f32) (ix2 0 q) = (V c main_v21 : S1x128.Idx → EReal) (ix2 0 q) := blk0_5 V c t _ _ (by first | exact hrv | rfl) rfl
  simp only [e0, e1, e2, e3, e4, e5, cast_eq]
  try rfl

/-- An index is in a point's output block iff each coordinate is in the block's range. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v22).slice (win0_6.rect t)).set ↔ _
  rw [View.set_slice_whole, Rect.mem_set_unit]
  exact Iff.rfl

/-- The twenty blocks of 5000 rows tile the output array. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := onto0 ⟨(i 0).val / 5000, by omega⟩
  obtain ⟨ho0, ho1⟩ := idx0_6 t
  have ht' : t.val = (i 0).val / 5000 := ht
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [ho0, ht']; omega
  | ⟨1, _⟩ => show win0_6.index t (1 : Fin 2) * 128 ≤ (i 1).val ∧ (i 1).val < win0_6.index t (1 : Fin 2) * 128 + 128; rw [ho1]; omega

/-- THE OUTPUT ARRAY after the region: the whole-array function of the arrays the region finds. -/
theorem arr0 (c : Dev nD) : (dat0 V c).arrAt 6 cfg0.N = hiddenK (V c main_arg0) (V c main_v20) (V c main_v8) (V c main_arg3) (V c main_arg4) (V c main_v21) :=
  (dat0 V c).arrAt_eq_of_cover 6 _ (fun t _ => flushed0 V c t) (cover0)

/-! ## Region 1 -/

theorem lt1 : ∀ t : Fin cfg1.N, t.val < 20 := (by decide +kernel : ∀ t : Fin grid1.N, _)
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
/-- Every block row of the output is some point's. -/
theorem onto1 : ∀ b : Fin 20, ∃ t : Fin cfg1.N, t.val = b.val :=
  (by decide +kernel : ∀ b : Fin 20, ∃ t : Fin grid1.N, t.val = b.val)

/-- Region 1, window 0: the block at a point is the 5000 rows starting at 5000 times the point. -/
theorem blk1_0 (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v22 : S100000x128.Idx → EReal) k := by
  have h0 : win1_0.index t (0 : Fin 2) = t.val := (idx1_0 t).1
  have h1 : win1_0.index t (1 : Fin 2) = 0 := (idx1_0 t).2
  unfold iblk1
  rw [View.read_apply]
  show V c main_v22 _ = V c main_v22 _
  congr 1
  funext a
  apply Fin.ext
  match a with
  | ⟨0, _⟩ => show win1_0.index t (0 : Fin 2) * 5000 + 1 * (x 0).val = (k 0).val; rw [h0, hk0]; omega
  | ⟨1, _⟩ => show win1_0.index t (1 : Fin 2) * 128 + 1 * (x 1).val = (k 1).val; rw [h1, hk1]; omega

/-- Region 1, window 1: the block at a point is the 5000 rows starting at 5000 times the point. -/
theorem blk1_1 (c : Dev nD) (t : Fin cfg1.N) (x : S5000x128.Idx) (k : S100000x128.Idx)
    (hk0 : (k 0).val = 5000 * t.val + (x 0).val) (hk1 : (k 1).val = (x 1).val) :
    (iblk1 V c 1 t : Vec Ideal S5000x128 .f32) x = (V c main_v34 : S100000x128.Idx → EReal) k := by
  have h0 : win1_1.index t (0 : Fin 2) = t.val := (idx1_1 t).1
  have h1 : win1_1.index t (1 : Fin 2) = 0 := (idx1_1 t).2
  unfold iblk1
  rw [View.read_apply]
  show V c main_v34 _ = V c main_v34 _
  congr 1
  funext a
  apply Fin.ext
  match a with
  | ⟨0, _⟩ => show win1_1.index t (0 : Fin 2) * 5000 + 1 * (x 0).val = (k 0).val; rw [h0, hk0]; omega
  | ⟨1, _⟩ => show win1_1.index t (1 : Fin 2) * 128 + 1 * (x 1).val = (k 1).val; rw [h1, hk1]; omega

/-- Region 1, window 2: the block at a point is the 5000 rows starting at 5000 times the point. -/
theorem blk1_2 (c : Dev nD) (t : Fin cfg1.N) (x : S5000x1.Idx) (k : S100000x1.Idx)
    (hk0 : (k 0).val = 5000 * t.val + (x 0).val) (hk1 : (k 1).val = (x 1).val) :
    (iblk1 V c 2 t : Vec Ideal S5000x1 .f32) x = (V c main_v8 : S100000x1.Idx → EReal) k := by
  have h0 : win1_2.index t (0 : Fin 2) = t.val := (idx1_2 t).1
  have h1 : win1_2.index t (1 : Fin 2) = 0 := (idx1_2 t).2
  unfold iblk1
  rw [View.read_apply]
  show V c main_v8 _ = V c main_v8 _
  congr 1
  funext a
  apply Fin.ext
  match a with
  | ⟨0, _⟩ => show win1_2.index t (0 : Fin 2) * 5000 + 1 * (x 0).val = (k 0).val; rw [h0, hk0]; omega
  | ⟨1, _⟩ => show win1_2.index t (1 : Fin 2) * 1 + 1 * (x 1).val = (k 1).val; rw [h1, hk1]; omega

/-- Region 1, window 3: the block at a point is the whole array, at every point. -/
theorem blk1_3 (c : Dev nD) (t : Fin cfg1.N) (x : S128x128.Idx) (k : S128x128.Idx)
    (hk0 : (k 0).val = (x 0).val) (hk1 : (k 1).val = (x 1).val) :
    (iblk1 V c 3 t : Vec Ideal S128x128 .f32) x = (V c main_arg6 : S128x128.Idx → EReal) k := by
  have h0 : win1_3.index t (0 : Fin 2) = 0 := (idx1_3 t).1
  have h1 : win1_3.index t (1 : Fin 2) = 0 := (idx1_3 t).2
  unfold iblk1
  rw [View.read_apply]
  show V c main_arg6 _ = V c main_arg6 _
  congr 1
  funext a
  apply Fin.ext
  match a with
  | ⟨0, _⟩ => show win1_3.index t (0 : Fin 2) * 128 + 1 * (x 0).val = (k 0).val; rw [h0, hk0]; omega
  | ⟨1, _⟩ => show win1_3.index t (1 : Fin 2) * 128 + 1 * (x 1).val = (k 1).val; rw [h1, hk1]; omega

/-- Region 1, window 4: the block at a point is the whole array, at every point. -/
theorem blk1_4 (c : Dev nD) (t : Fin cfg1.N) (x : S128x128.Idx) (k : S128x128.Idx)
    (hk0 : (k 0).val = (x 0).val) (hk1 : (k 1).val = (x 1).val) :
    (iblk1 V c 4 t : Vec Ideal S128x128 .f32) x = (V c main_arg7 : S128x128.Idx → EReal) k := by
  have h0 : win1_4.index t (0 : Fin 2) = 0 := (idx1_4 t).1
  have h1 : win1_4.index t (1 : Fin 2) = 0 := (idx1_4 t).2
  unfold iblk1
  rw [View.read_apply]
  show V c main_arg7 _ = V c main_arg7 _
  congr 1
  funext a
  apply Fin.ext
  match a with
  | ⟨0, _⟩ => show win1_4.index t (0 : Fin 2) * 128 + 1 * (x 0).val = (k 0).val; rw [h0, hk0]; omega
  | ⟨1, _⟩ => show win1_4.index t (1 : Fin 2) * 128 + 1 * (x 1).val = (k 1).val; rw [h1, hk1]; omega

/-- Region 1, window 5: the block at a point is the whole array, at every point. -/
theorem blk1_5 (c : Dev nD) (t : Fin cfg1.N) (x : S1x128.Idx) (k : S1x128.Idx)
    (hk0 : (k 0).val = (x 0).val) (hk1 : (k 1).val = (x 1).val) :
    (iblk1 V c 5 t : Vec Ideal S1x128 .f32) x = (V c main_v35 : S1x128.Idx → EReal) k := by
  have h0 : win1_5.index t (0 : Fin 2) = 0 := (idx1_5 t).1
  have h1 : win1_5.index t (1 : Fin 2) = 0 := (idx1_5 t).2
  unfold iblk1
  rw [View.read_apply]
  show V c main_v35 _ = V c main_v35 _
  congr 1
  funext a
  apply Fin.ext
  match a with
  | ⟨0, _⟩ => show win1_5.index t (0 : Fin 2) * 1 + 1 * (x 0).val = (k 0).val; rw [h0, hk0]; omega
  | ⟨1, _⟩ => show win1_5.index t (1 : Fin 2) * 128 + 1 * (x 1).val = (k 1).val; rw [h1, hk1]; omega

/-- What a point writes back is its block of the whole-array function of the arrays the region finds. -/
theorem flushed1 (c : Dev nD) (t : Fin cfg1.N) :
    (dat1 V c).flushed 6 t = ((cfg1.win 6).blk t).view.read (Elt Ideal) (hiddenK (V c main_v22) (V c main_v34) (V c main_v8) (V c main_arg6) (V c main_arg7) (V c main_v35)) := by
  have hlt := lt1 t
  obtain ⟨ho0, ho1⟩ := idx1_6 t
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz, View.ld_unit_zero (S := S1x128) hz]
  funext j
  rw [View.read_apply]
  obtain ⟨p, q, rfl⟩ : ∃ (p : Fin 5000) (q : Fin 128), j = ix2 p q := ⟨j 0, j 1, eq_ix2 j⟩
  have hr : 5000 * t.val + p.val < 100000 := by have := p.isLt; omega
  obtain ⟨r, hrv⟩ : ∃ r : Fin 100000, r.val = 5000 * t.val + p.val := ⟨⟨_, hr⟩, rfl⟩
  have hemb : ((cfg1.win 6).blk t).view.emb (ix2 p q) = (ix2 r q : S100000x128.Idx) := by
    funext a; apply Fin.ext
    match a with
    | ⟨0, _⟩ => show win1_6.index t (0 : Fin 2) * 5000 + 1 * p.val = r.val; rw [ho0, hrv]; omega
    | ⟨1, _⟩ => show win1_6.index t (1 : Fin 2) * 128 + 1 * q.val = q.val; rw [ho1]; omega
  rw [hemb, hiddenK_ix2]
  show k1_pay1 (iblk1 V c 0 t) (iblk1 V c 1 t) (iblk1 V c 3 t) (iblk1 V c 4 t) (iblk1 V c 2 t) (iblk1 V c 5 t) (ix2 p q) = _
  refine (Body.hidden1_apply _ _ _ _ _ _ p q).trans ?_
  unfold hiddenE
  have e0 : ∀ k : Fin 128, (iblk1 V c 0 t : Vec Ideal S5000x128 .f32) (ix2 p k) = (V c main_v22 : S100000x128.Idx → EReal) (ix2 r k) := fun k => blk1_0 V c t _ _ (by first | exact hrv | rfl) rfl
  have e1 : ∀ k : Fin 128, (iblk1 V c 1 t : Vec Ideal S5000x128 .f32) (ix2 p k) = (V c main_v34 : S100000x128.Idx → EReal) (ix2 r k) := fun k => blk1_1 V c t _ _ (by first | exact hrv | rfl) rfl
  have e2 : (iblk1 V c 2 t : Vec Ideal S5000x1 .f32) (ix2 p 0) = (V c main_v8 : S100000x1.Idx → EReal) (ix2 r 0) := blk1_2 V c t _ _ (by first | exact hrv | rfl) rfl
  have e3 : ∀ k : Fin 128, (iblk1 V c 3 t : Vec Ideal S128x128 .f32) (ix2 k q) = (V c main_arg6 : S128x128.Idx → EReal) (ix2 k q) := fun k => blk1_3 V c t _ _ (by first | exact hrv | rfl) rfl
  have e4 : ∀ k : Fin 128, (iblk1 V c 4 t : Vec Ideal S128x128 .f32) (ix2 k q) = (V c main_arg7 : S128x128.Idx → EReal) (ix2 k q) := fun k => blk1_4 V c t _ _ (by first | exact hrv | rfl) rfl
  have e5 : (iblk1 V c 5 t : Vec Ideal S1x128 .f32) (ix2 0 q) = (V c main_v35 : S1x128.Idx → EReal) (ix2 0 q) := blk1_5 V c t _ _ (by first | exact hrv | rfl) rfl
  simp only [e0, e1, e2, e3, e4, e5, cast_eq]
  try rfl

/-- An index is in a point's output block iff each coordinate is in the block's range. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v36).slice (win1_6.rect t)).set ↔ _
  rw [View.set_slice_whole, Rect.mem_set_unit]
  exact Iff.rfl

/-- The twenty blocks of 5000 rows tile the output array. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := onto1 ⟨(i 0).val / 5000, by omega⟩
  obtain ⟨ho0, ho1⟩ := idx1_6 t
  have ht' : t.val = (i 0).val / 5000 := ht
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [ho0, ht']; omega
  | ⟨1, _⟩ => show win1_6.index t (1 : Fin 2) * 128 ≤ (i 1).val ∧ (i 1).val < win1_6.index t (1 : Fin 2) * 128 + 128; rw [ho1]; omega

/-- THE OUTPUT ARRAY after the region: the whole-array function of the arrays the region finds. -/
theorem arr1 (c : Dev nD) : (dat1 V c).arrAt 6 cfg1.N = hiddenK (V c main_v22) (V c main_v34) (V c main_v8) (V c main_arg6) (V c main_arg7) (V c main_v35) :=
  (dat1 V c).arrAt_eq_of_cover 6 _ (fun t _ => flushed1 V c t) (cover1)

/-! ## Region 2 -/

theorem lt2 : ∀ t : Fin cfg2.N, t.val < 20 := (by decide +kernel : ∀ t : Fin grid2.N, _)
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
/-- Every block row of the output is some point's. -/
theorem onto2 : ∀ b : Fin 20, ∃ t : Fin cfg2.N, t.val = b.val :=
  (by decide +kernel : ∀ b : Fin 20, ∃ t : Fin grid2.N, t.val = b.val)

/-- Region 2, window 0: the block at a point is the 5000 rows starting at 5000 times the point. -/
theorem blk2_0 (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v36 : S100000x128.Idx → EReal) k := by
  have h0 : win2_0.index t (0 : Fin 2) = t.val := (idx2_0 t).1
  have h1 : win2_0.index t (1 : Fin 2) = 0 := (idx2_0 t).2
  unfold iblk2
  rw [View.read_apply]
  show V c main_v36 _ = V c main_v36 _
  congr 1
  funext a
  apply Fin.ext
  match a with
  | ⟨0, _⟩ => show win2_0.index t (0 : Fin 2) * 5000 + 1 * (x 0).val = (k 0).val; rw [h0, hk0]; omega
  | ⟨1, _⟩ => show win2_0.index t (1 : Fin 2) * 128 + 1 * (x 1).val = (k 1).val; rw [h1, hk1]; omega

/-- Region 2, window 1: the block at a point is the whole array, at every point. -/
theorem blk2_1 (c : Dev nD) (t : Fin cfg2.N) (x : S128x64.Idx) (k : S128x64.Idx)
    (hk0 : (k 0).val = (x 0).val) (hk1 : (k 1).val = (x 1).val) :
    (iblk2 V c 1 t : Vec Ideal S128x64 .f32) x = (V c main_arg10 : S128x64.Idx → EReal) k := by
  have h0 : win2_1.index t (0 : Fin 2) = 0 := (idx2_1 t).1
  have h1 : win2_1.index t (1 : Fin 2) = 0 := (idx2_1 t).2
  unfold iblk2
  rw [View.read_apply]
  show V c main_arg10 _ = V c main_arg10 _
  congr 1
  funext a
  apply Fin.ext
  match a with
  | ⟨0, _⟩ => show win2_1.index t (0 : Fin 2) * 128 + 1 * (x 0).val = (k 0).val; rw [h0, hk0]; omega
  | ⟨1, _⟩ => show win2_1.index t (1 : Fin 2) * 64 + 1 * (x 1).val = (k 1).val; rw [h1, hk1]; omega

/-- What a point writes back is its block of the whole-array function of the arrays the region finds. -/
theorem flushed2 (c : Dev nD) (t : Fin cfg2.N) :
    (dat2 V c).flushed 2 t = ((cfg2.win 2).blk t).view.read (Elt Ideal) (projK (V c main_v36) (V c main_arg10)) := by
  have hlt := lt2 t
  obtain ⟨ho0, ho1⟩ := idx2_2 t
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  funext j
  rw [View.read_apply]
  obtain ⟨p, q, rfl⟩ : ∃ (p : Fin 5000) (q : Fin 64), j = ix2 p q := ⟨j 0, j 1, eq_ix2 j⟩
  have hr : 5000 * t.val + p.val < 100000 := by have := p.isLt; omega
  obtain ⟨r, hrv⟩ : ∃ r : Fin 100000, r.val = 5000 * t.val + p.val := ⟨⟨_, hr⟩, rfl⟩
  have hemb : ((cfg2.win 2).blk t).view.emb (ix2 p q) = (ix2 r q : S100000x64.Idx) := by
    funext a; apply Fin.ext
    match a with
    | ⟨0, _⟩ => show win2_2.index t (0 : Fin 2) * 5000 + 1 * p.val = r.val; rw [ho0, hrv]; omega
    | ⟨1, _⟩ => show win2_2.index t (1 : Fin 2) * 64 + 1 * q.val = q.val; rw [ho1]; omega
  rw [hemb, projK_ix2]
  show k2_pay1 (iblk2 V c 0 t) (iblk2 V c 1 t) (ix2 p q) = _
  refine (Body.project_apply _ _ p q).trans ?_
  unfold projE
  have e0 : ∀ k : Fin 128, (iblk2 V c 0 t : Vec Ideal S5000x128 .f32) (ix2 p k) = (V c main_v36 : S100000x128.Idx → EReal) (ix2 r k) := fun k => blk2_0 V c t _ _ (by first | exact hrv | rfl) rfl
  have e1 : ∀ k : Fin 128, (iblk2 V c 1 t : Vec Ideal S128x64 .f32) (ix2 k q) = (V c main_arg10 : S128x64.Idx → EReal) (ix2 k q) := fun k => blk2_1 V c t _ _ (by first | exact hrv | rfl) rfl
  simp only [e0, e1, cast_eq]
  try rfl

/-- An index is in a point's output block iff each coordinate is in the block's range. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v37).slice (win2_2.rect t)).set ↔ _
  rw [View.set_slice_whole, Rect.mem_set_unit]
  exact Iff.rfl

/-- The twenty blocks of 5000 rows tile the output array. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := onto2 ⟨(i 0).val / 5000, by omega⟩
  obtain ⟨ho0, ho1⟩ := idx2_2 t
  have ht' : t.val = (i 0).val / 5000 := ht
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [ho0, ht']; omega
  | ⟨1, _⟩ => show win2_2.index t (1 : Fin 2) * 64 ≤ (i 1).val ∧ (i 1).val < win2_2.index t (1 : Fin 2) * 64 + 64; rw [ho1]; omega

/-- THE OUTPUT ARRAY after the region: the whole-array function of the arrays the region finds. -/
theorem arr2 (c : Dev nD) : (dat2 V c).arrAt 2 cfg2.N = projK (V c main_v36) (V c main_arg10) :=
  (dat2 V c).arrAt_eq_of_cover 2 _ (fun t _ => flushed2 V c t) (cover2)

/-! ## Region 3 -/

theorem lt3 : ∀ t : Fin cfg3.N, t.val < 20 := (by decide +kernel : ∀ t : Fin grid3.N, _)
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = t.val ∧ win3_5.index t (1 : Fin 2) = 0 :=
  (by decide +kernel : ∀ t : Fin grid3.N, _)
/-- Every block row of the output is some point's. -/
theorem onto3 : ∀ b : Fin 20, ∃ t : Fin cfg3.N, t.val = b.val :=
  (by decide +kernel : ∀ b : Fin 20, ∃ t : Fin grid3.N, t.val = b.val)

/-- Region 3, window 0: the block at a point is the 5000 rows starting at 5000 times the point. -/
theorem blk3_0 (c : Dev nD) (t : Fin cfg3.N) (x : S5000x128.Idx) (k : S100000x128.Idx)
    (hk0 : (k 0).val = 5000 * t.val + (x 0).val) (hk1 : (k 1).val = (x 1).val) :
    (iblk3 V c 0 t : Vec Ideal S5000x128 .f32) x = (V c main_v36 : S100000x128.Idx → EReal) k := by
  have h0 : win3_0.index t (0 : Fin 2) = t.val := (idx3_0 t).1
  have h1 : win3_0.index t (1 : Fin 2) = 0 := (idx3_0 t).2
  unfold iblk3
  rw [View.read_apply]
  show V c main_v36 _ = V c main_v36 _
  congr 1
  funext a
  apply Fin.ext
  match a with
  | ⟨0, _⟩ => show win3_0.index t (0 : Fin 2) * 5000 + 1 * (x 0).val = (k 0).val; rw [h0, hk0]; omega
  | ⟨1, _⟩ => show win3_0.index t (1 : Fin 2) * 128 + 1 * (x 1).val = (k 1).val; rw [h1, hk1]; omega

/-- Region 3, window 1: the block at a point is the 5000 rows starting at 5000 times the point. -/
theorem blk3_1 (c : Dev nD) (t : Fin cfg3.N) (x : S5000x64.Idx) (k : S100000x64.Idx)
    (hk0 : (k 0).val = 5000 * t.val + (x 0).val) (hk1 : (k 1).val = (x 1).val) :
    (iblk3 V c 1 t : Vec Ideal S5000x64 .f32) x = (V c main_v49 : S100000x64.Idx → EReal) k := by
  have h0 : win3_1.index t (0 : Fin 2) = t.val := (idx3_1 t).1
  have h1 : win3_1.index t (1 : Fin 2) = 0 := (idx3_1 t).2
  unfold iblk3
  rw [View.read_apply]
  show V c main_v49 _ = V c main_v49 _
  congr 1
  funext a
  apply Fin.ext
  match a with
  | ⟨0, _⟩ => show win3_1.index t (0 : Fin 2) * 5000 + 1 * (x 0).val = (k 0).val; rw [h0, hk0]; omega
  | ⟨1, _⟩ => show win3_1.index t (1 : Fin 2) * 64 + 1 * (x 1).val = (k 1).val; rw [h1, hk1]; omega

/-- Region 3, window 2: the block at a point is the 5000 rows starting at 5000 times the point. -/
theorem blk3_2 (c : Dev nD) (t : Fin cfg3.N) (x : S5000x1.Idx) (k : S100000x1.Idx)
    (hk0 : (k 0).val = 5000 * t.val + (x 0).val) (hk1 : (k 1).val = (x 1).val) :
    (iblk3 V c 2 t : Vec Ideal S5000x1 .f32) x = (V c main_v8 : S100000x1.Idx → EReal) k := by
  have h0 : win3_2.index t (0 : Fin 2) = t.val := (idx3_2 t).1
  have h1 : win3_2.index t (1 : Fin 2) = 0 := (idx3_2 t).2
  unfold iblk3
  rw [View.read_apply]
  show V c main_v8 _ = V c main_v8 _
  congr 1
  funext a
  apply Fin.ext
  match a with
  | ⟨0, _⟩ => show win3_2.index t (0 : Fin 2) * 5000 + 1 * (x 0).val = (k 0).val; rw [h0, hk0]; omega
  | ⟨1, _⟩ => show win3_2.index t (1 : Fin 2) * 1 + 1 * (x 1).val = (k 1).val; rw [h1, hk1]; omega

/-- Region 3, window 3: the block at a point is the whole array, at every point. -/
theorem blk3_3 (c : Dev nD) (t : Fin cfg3.N) (x : S128x64.Idx) (k : S128x64.Idx)
    (hk0 : (k 0).val = (x 0).val) (hk1 : (k 1).val = (x 1).val) :
    (iblk3 V c 3 t : Vec Ideal S128x64 .f32) x = (V c main_arg9 : S128x64.Idx → EReal) k := by
  have h0 : win3_3.index t (0 : Fin 2) = 0 := (idx3_3 t).1
  have h1 : win3_3.index t (1 : Fin 2) = 0 := (idx3_3 t).2
  unfold iblk3
  rw [View.read_apply]
  show V c main_arg9 _ = V c main_arg9 _
  congr 1
  funext a
  apply Fin.ext
  match a with
  | ⟨0, _⟩ => show win3_3.index t (0 : Fin 2) * 128 + 1 * (x 0).val = (k 0).val; rw [h0, hk0]; omega
  | ⟨1, _⟩ => show win3_3.index t (1 : Fin 2) * 64 + 1 * (x 1).val = (k 1).val; rw [h1, hk1]; omega

/-- Region 3, window 4: the block at a point is the whole array, at every point. -/
theorem blk3_4 (c : Dev nD) (t : Fin cfg3.N) (x : S1x64.Idx) (k : S1x64.Idx)
    (hk0 : (k 0).val = (x 0).val) (hk1 : (k 1).val = (x 1).val) :
    (iblk3 V c 4 t : Vec Ideal S1x64 .f32) x = (V c main_v50 : S1x64.Idx → EReal) k := by
  have h0 : win3_4.index t (0 : Fin 2) = 0 := (idx3_4 t).1
  have h1 : win3_4.index t (1 : Fin 2) = 0 := (idx3_4 t).2
  unfold iblk3
  rw [View.read_apply]
  show V c main_v50 _ = V c main_v50 _
  congr 1
  funext a
  apply Fin.ext
  match a with
  | ⟨0, _⟩ => show win3_4.index t (0 : Fin 2) * 1 + 1 * (x 0).val = (k 0).val; rw [h0, hk0]; omega
  | ⟨1, _⟩ => show win3_4.index t (1 : Fin 2) * 64 + 1 * (x 1).val = (k 1).val; rw [h1, hk1]; omega

/-- What a point writes back is its block of the whole-array function of the arrays the region finds. -/
theorem flushed3 (c : Dev nD) (t : Fin cfg3.N) :
    (dat3 V c).flushed 5 t = ((cfg3.win 5).blk t).view.read (Elt Ideal) (finalK (V c main_v36) (V c main_v49) (V c main_v8) (V c main_arg9) (V c main_v50)) := by
  have hlt := lt3 t
  obtain ⟨ho0, ho1⟩ := idx3_5 t
  show (cfg3.win 5).cut (grid3.coords t) ((dat3 V c).after 5 t) = _
  rw [after3_5]
  unfold out3_5
  rw [View.canon_unit_zero hz]
  simp only [View.ld_unit_zero (S := S5000x128) hz, View.ld_unit_zero (S := S5000x64) hz, View.ld_unit_zero (S := S5000x1) hz, View.ld_unit_zero (S := S128x64) hz, View.ld_unit_zero (S := S1x64) hz]
  funext j
  rw [View.read_apply]
  obtain ⟨p, q, rfl⟩ : ∃ (p : Fin 5000) (q : Fin 64), j = ix2 p q := ⟨j 0, j 1, eq_ix2 j⟩
  have hr : 5000 * t.val + p.val < 100000 := by have := p.isLt; omega
  obtain ⟨r, hrv⟩ : ∃ r : Fin 100000, r.val = 5000 * t.val + p.val := ⟨⟨_, hr⟩, rfl⟩
  have hemb : ((cfg3.win 5).blk t).view.emb (ix2 p q) = (ix2 r q : S100000x64.Idx) := by
    funext a; apply Fin.ext
    match a with
    | ⟨0, _⟩ => show win3_5.index t (0 : Fin 2) * 5000 + 1 * p.val = r.val; rw [ho0, hrv]; omega
    | ⟨1, _⟩ => show win3_5.index t (1 : Fin 2) * 64 + 1 * q.val = q.val; rw [ho1]; omega
  rw [hemb, finalK_ix2]
  show k3_pay1 (iblk3 V c 0 t) (iblk3 V c 3 t) (iblk3 V c 1 t) (iblk3 V c 2 t) (iblk3 V c 4 t) (ix2 p q) = _
  refine (Body.final_apply _ _ _ _ _ p q).trans ?_
  unfold finalE
  have e0 : ∀ k : Fin 128, (iblk3 V c 0 t : Vec Ideal S5000x128 .f32) (ix2 p k) = (V c main_v36 : S100000x128.Idx → EReal) (ix2 r k) := fun k => blk3_0 V c t _ _ (by first | exact hrv | rfl) rfl
  have e1 : (iblk3 V c 1 t : Vec Ideal S5000x64 .f32) (ix2 p q) = (V c main_v49 : S100000x64.Idx → EReal) (ix2 r q) := blk3_1 V c t _ _ (by first | exact hrv | rfl) rfl
  have e2 : (iblk3 V c 2 t : Vec Ideal S5000x1 .f32) (ix2 p 0) = (V c main_v8 : S100000x1.Idx → EReal) (ix2 r 0) := blk3_2 V c t _ _ (by first | exact hrv | rfl) rfl
  have e3 : ∀ k : Fin 128, (iblk3 V c 3 t : Vec Ideal S128x64 .f32) (ix2 k q) = (V c main_arg9 : S128x64.Idx → EReal) (ix2 k q) := fun k => blk3_3 V c t _ _ (by first | exact hrv | rfl) rfl
  have e4 : (iblk3 V c 4 t : Vec Ideal S1x64 .f32) (ix2 0 q) = (V c main_v50 : S1x64.Idx → EReal) (ix2 0 q) := blk3_4 V c t _ _ (by first | exact hrv | rfl) rfl
  simp only [e0, e1, e2, e3, e4, cast_eq]
  try rfl

/-- An index is in a point's output block iff each coordinate is in the block's range. -/
theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v51).slice (win3_5.rect t)).set ↔ _
  rw [View.set_slice_whole, Rect.mem_set_unit]
  exact Iff.rfl

/-- The twenty blocks of 5000 rows tile the output array. -/
theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := onto3 ⟨(i 0).val / 5000, by omega⟩
  obtain ⟨ho0, ho1⟩ := idx3_5 t
  have ht' : t.val = (i 0).val / 5000 := ht
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; rw [ho0, ht']; omega
  | ⟨1, _⟩ => show win3_5.index t (1 : Fin 2) * 64 ≤ (i 1).val ∧ (i 1).val < win3_5.index t (1 : Fin 2) * 64 + 64; rw [ho1]; omega

/-- THE OUTPUT ARRAY after the region: the whole-array function of the arrays the region finds. -/
theorem arr3 (c : Dev nD) : (dat3 V c).arrAt 5 cfg3.N = finalK (V c main_v36) (V c main_v49) (V c main_v8) (V c main_arg9) (V c main_v50) :=
  (dat3 V c).arrAt_eq_of_cover 5 _ (fun t _ => flushed3 V c t) (cover3)

end Cert.KernelIdeal.Blocks

end
-- ==== Proof.FoldKeep.lean ====
/-
  What no operation wrote stays as it was.

  The kernel's final memory is a fold over the program: a stretch of host operations changes only the buffers its
  operations write, and a region changes only the arrays of its output windows. Followed back from any point of the
  program, an argument is therefore what was launched, the column of reciprocal degrees is what the first stretch
  computed, and a layer's output is unchanged by everything after the region that wrote it.
-/
import proofs.«179563_j74792560492685_2_alg».proof.Proof.PatchedKernelIdealFrame
import proofs.«179563_j74792560492685_2_alg».proof.Proof.Spec
import Idealize.ShloMosaic.PureOps.Ideal

set_option maxRecDepth 16384

noncomputable section

namespace Cert.KernelIdeal.Fold

open Idealize.ShloMosaic Idealize.ShloMosaic.TcCoe Idealize.ShloMosaic.Tactic Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

/-! ## Across boundary 1 -/

theorem s1_main_arg0 : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg1 : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg2 : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg3 : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg4 : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg6 : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg7 : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg8 : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg9 : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg10 : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg11 : W1 m ρ c (Proc.devRef .tc main_arg11) = W0 m ρ c (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Across boundary 2 -/

theorem s2_main_arg1 : W2 m ρ c (Proc.devRef .tc main_arg1) = W1 m ρ c (Proc.devRef .tc main_arg1) := W2_of_ne m ρ c main_arg1 (by decide)
theorem s2_main_arg2 : W2 m ρ c (Proc.devRef .tc main_arg2) = W1 m ρ c (Proc.devRef .tc main_arg2) := W2_of_ne m ρ c main_arg2 (by decide)
theorem s2_main_arg6 : W2 m ρ c (Proc.devRef .tc main_arg6) = W1 m ρ c (Proc.devRef .tc main_arg6) := W2_of_ne m ρ c main_arg6 (by decide)
theorem s2_main_arg7 : W2 m ρ c (Proc.devRef .tc main_arg7) = W1 m ρ c (Proc.devRef .tc main_arg7) := W2_of_ne m ρ c main_arg7 (by decide)
theorem s2_main_arg8 : W2 m ρ c (Proc.devRef .tc main_arg8) = W1 m ρ c (Proc.devRef .tc main_arg8) := W2_of_ne m ρ c main_arg8 (by decide)
theorem s2_main_arg9 : W2 m ρ c (Proc.devRef .tc main_arg9) = W1 m ρ c (Proc.devRef .tc main_arg9) := W2_of_ne m ρ c main_arg9 (by decide)
theorem s2_main_arg10 : W2 m ρ c (Proc.devRef .tc main_arg10) = W1 m ρ c (Proc.devRef .tc main_arg10) := W2_of_ne m ρ c main_arg10 (by decide)
theorem s2_main_arg11 : W2 m ρ c (Proc.devRef .tc main_arg11) = W1 m ρ c (Proc.devRef .tc main_arg11) := W2_of_ne m ρ c main_arg11 (by decide)
theorem s2_main_v8 : W2 m ρ c (Proc.devRef .tc main_v8) = W1 m ρ c (Proc.devRef .tc main_v8) :=
  (W2_arr m ρ c 2).trans (((dat0 (V1 m ρ) c).arrAt_in 2 rfl _).trans (A_eq0 (V1 m ρ) c 2))

/-! ## Across boundary 3 -/

theorem s3_main_arg1 : W3 m ρ c (Proc.devRef .tc main_arg1) = W2 m ρ c (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_main_arg2 : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_main_arg6 : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_main_arg7 : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_main_arg9 : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_main_arg10 : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_main_arg11 : W3 m ρ c (Proc.devRef .tc main_arg11) = W2 m ρ c (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_main_v8 : W3 m ρ c (Proc.devRef .tc main_v8) = W2 m ρ c (Proc.devRef .tc main_v8) :=
  StableHlo.after_of_forall_not_mem (b := Proc.devRef .tc main_v8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s3_main_v22 : W3 m ρ c (Proc.devRef .tc main_v22) = W2 m ρ c (Proc.devRef .tc main_v22) :=
  StableHlo.after_of_forall_not_mem (b := Proc.devRef .tc main_v22) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Across boundary 4 -/

theorem s4_main_arg1 : W4 m ρ c (Proc.devRef .tc main_arg1) = W3 m ρ c (Proc.devRef .tc main_arg1) := W4_of_ne m ρ c main_arg1 (by decide)
theorem s4_main_arg2 : W4 m ρ c (Proc.devRef .tc main_arg2) = W3 m ρ c (Proc.devRef .tc main_arg2) := W4_of_ne m ρ c main_arg2 (by decide)
theorem s4_main_arg9 : W4 m ρ c (Proc.devRef .tc main_arg9) = W3 m ρ c (Proc.devRef .tc main_arg9) := W4_of_ne m ρ c main_arg9 (by decide)
theorem s4_main_arg10 : W4 m ρ c (Proc.devRef .tc main_arg10) = W3 m ρ c (Proc.devRef .tc main_arg10) := W4_of_ne m ρ c main_arg10 (by decide)
theorem s4_main_arg11 : W4 m ρ c (Proc.devRef .tc main_arg11) = W3 m ρ c (Proc.devRef .tc main_arg11) := W4_of_ne m ρ c main_arg11 (by decide)
theorem s4_main_v8 : W4 m ρ c (Proc.devRef .tc main_v8) = W3 m ρ c (Proc.devRef .tc main_v8) :=
  (W4_arr m ρ c 2).trans (((dat1 (V3 m ρ) c).arrAt_in 2 rfl _).trans (A_eq1 (V3 m ρ) c 2))

/-! ## Across boundary 5 -/

theorem s5_main_arg1 : W5 m ρ c (Proc.devRef .tc main_arg1) = W4 m ρ c (Proc.devRef .tc main_arg1) := W5_of_ne m ρ c main_arg1 (by decide)
theorem s5_main_arg2 : W5 m ρ c (Proc.devRef .tc main_arg2) = W4 m ρ c (Proc.devRef .tc main_arg2) := W5_of_ne m ρ c main_arg2 (by decide)
theorem s5_main_arg9 : W5 m ρ c (Proc.devRef .tc main_arg9) = W4 m ρ c (Proc.devRef .tc main_arg9) := W5_of_ne m ρ c main_arg9 (by decide)
theorem s5_main_arg11 : W5 m ρ c (Proc.devRef .tc main_arg11) = W4 m ρ c (Proc.devRef .tc main_arg11) := W5_of_ne m ρ c main_arg11 (by decide)
theorem s5_main_v8 : W5 m ρ c (Proc.devRef .tc main_v8) = W4 m ρ c (Proc.devRef .tc main_v8) := W5_of_ne m ρ c main_v8 (by decide)
theorem s5_main_v36 : W5 m ρ c (Proc.devRef .tc main_v36) = W4 m ρ c (Proc.devRef .tc main_v36) :=
  (W5_arr m ρ c 0).trans (((dat2 (V4 m ρ) c).arrAt_in 0 rfl _).trans (A_eq2 (V4 m ρ) c 0))

/-! ## Across boundary 6 -/

theorem s6_main_arg9 : W6 m ρ c (Proc.devRef .tc main_arg9) = W5 m ρ c (Proc.devRef .tc main_arg9) :=
  StableHlo.after_of_forall_not_mem (b := Proc.devRef .tc main_arg9) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_main_v8 : W6 m ρ c (Proc.devRef .tc main_v8) = W5 m ρ c (Proc.devRef .tc main_v8) :=
  StableHlo.after_of_forall_not_mem (b := Proc.devRef .tc main_v8) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_main_v36 : W6 m ρ c (Proc.devRef .tc main_v36) = W5 m ρ c (Proc.devRef .tc main_v36) :=
  StableHlo.after_of_forall_not_mem (b := Proc.devRef .tc main_v36) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The arguments, wherever they are read -/

theorem k1_main_arg0 : W1 m ρ c (Proc.devRef .tc main_arg0) = m ((c : Thread nD τ).loc main_arg0) :=
  (s1_main_arg0 m ρ c).trans rfl
theorem k1_main_arg3 : W1 m ρ c (Proc.devRef .tc main_arg3) = m ((c : Thread nD τ).loc main_arg3) :=
  (s1_main_arg3 m ρ c).trans rfl
theorem k1_main_arg4 : W1 m ρ c (Proc.devRef .tc main_arg4) = m ((c : Thread nD τ).loc main_arg4) :=
  (s1_main_arg4 m ρ c).trans rfl
theorem k2_main_arg1 : W2 m ρ c (Proc.devRef .tc main_arg1) = m ((c : Thread nD τ).loc main_arg1) :=
  (s2_main_arg1 m ρ c).trans ((s1_main_arg1 m ρ c).trans rfl)
theorem k2_main_arg2 : W2 m ρ c (Proc.devRef .tc main_arg2) = m ((c : Thread nD τ).loc main_arg2) :=
  (s2_main_arg2 m ρ c).trans ((s1_main_arg2 m ρ c).trans rfl)
theorem k2_main_arg8 : W2 m ρ c (Proc.devRef .tc main_arg8) = m ((c : Thread nD τ).loc main_arg8) :=
  (s2_main_arg8 m ρ c).trans ((s1_main_arg8 m ρ c).trans rfl)
theorem k3_main_arg6 : W3 m ρ c (Proc.devRef .tc main_arg6) = m ((c : Thread nD τ).loc main_arg6) :=
  (s3_main_arg6 m ρ c).trans ((s2_main_arg6 m ρ c).trans ((s1_main_arg6 m ρ c).trans rfl))
theorem k3_main_arg7 : W3 m ρ c (Proc.devRef .tc main_arg7) = m ((c : Thread nD τ).loc main_arg7) :=
  (s3_main_arg7 m ρ c).trans ((s2_main_arg7 m ρ c).trans ((s1_main_arg7 m ρ c).trans rfl))
theorem k4_main_arg10 : W4 m ρ c (Proc.devRef .tc main_arg10) = m ((c : Thread nD τ).loc main_arg10) :=
  (s4_main_arg10 m ρ c).trans ((s3_main_arg10 m ρ c).trans ((s2_main_arg10 m ρ c).trans ((s1_main_arg10 m ρ c).trans rfl)))
theorem k5_main_arg1 : W5 m ρ c (Proc.devRef .tc main_arg1) = m ((c : Thread nD τ).loc main_arg1) :=
  (s5_main_arg1 m ρ c).trans ((s4_main_arg1 m ρ c).trans ((s3_main_arg1 m ρ c).trans ((s2_main_arg1 m ρ c).trans ((s1_main_arg1 m ρ c).trans rfl))))
theorem k5_main_arg2 : W5 m ρ c (Proc.devRef .tc main_arg2) = m ((c : Thread nD τ).loc main_arg2) :=
  (s5_main_arg2 m ρ c).trans ((s4_main_arg2 m ρ c).trans ((s3_main_arg2 m ρ c).trans ((s2_main_arg2 m ρ c).trans ((s1_main_arg2 m ρ c).trans rfl))))
theorem k5_main_arg11 : W5 m ρ c (Proc.devRef .tc main_arg11) = m ((c : Thread nD τ).loc main_arg11) :=
  (s5_main_arg11 m ρ c).trans ((s4_main_arg11 m ρ c).trans ((s3_main_arg11 m ρ c).trans ((s2_main_arg11 m ρ c).trans ((s1_main_arg11 m ρ c).trans rfl))))
theorem k6_main_arg9 : W6 m ρ c (Proc.devRef .tc main_arg9) = m ((c : Thread nD τ).loc main_arg9) :=
  (s6_main_arg9 m ρ c).trans ((s5_main_arg9 m ρ c).trans ((s4_main_arg9 m ρ c).trans ((s3_main_arg9 m ρ c).trans ((s2_main_arg9 m ρ c).trans ((s1_main_arg9 m ρ c).trans rfl)))))

end Cert.KernelIdeal.Fold

end
-- ==== Proof.HostTerms.lean ====
/-
  The host computations of both programs as functions of what they read.

  Before every region the host gathers the current node features along the edges (each edge reads its source node's
  row, the source index read signed, wrapped if negative, and clamped into range) and adds every gathered row into
  its destination node's row. The column of reciprocal clamped in-degrees is computed once. A bias vector is passed
  to a region as a one-row matrix. The 128-wide forms are written with the reference's own operations, so that the
  reference's values are these functions by definition; the 64-wide neighbour sum occurs only in the kernel.
-/
import proofs.«179563_j74792560492685_2_alg».proof.Proof.Gen.KernelIdeal
import proofs.«179563_j74792560492685_2_alg».proof.Proof.Gen.ReferenceIdeal.Read
import proofs.«179563_j74792560492685_2_alg».proof.Proof.Spec
import Idealize.ShloMosaic.PureOps.Ideal

set_option maxRecDepth 16384

noncomputable section

namespace Cert.KernelIdeal.Fold

open Idealize.ShloMosaic Idealize.ShloMosaic.TcCoe Idealize.ShloMosaic.Tactic Idealize.SL.Sem Idealize.ShloMosaic.StableHlo
open Cert.KernelIdeal Cert.KernelIdeal.Gen Cert.Sage

/-- The column of reciprocal clamped in-degrees, from the destination indices. -/
def dOf (x2 : (⟨Cert.ReferenceIdeal.S1600000, .i32⟩ : BufTy).Contents (Elt Ideal)) : Col :=
  Cert.ReferenceIdeal.Read.val_main_v8 (F := Ideal) x2
/-- The edges' source rows: the source indices, wrapped if negative, as a one-column array. -/
def srcIdx (x1 : (⟨Cert.ReferenceIdeal.S1600000, .i32⟩ : BufTy).Contents (Elt Ideal)) : IVec ⟨2, ![1600000, 1]⟩ 32 :=
  Cert.ReferenceIdeal.Read.val_main_v14 (F := Ideal) x1
/-- The edges' destination rows as a one-column array. -/
def dstIdx (x2 : (⟨Cert.ReferenceIdeal.S1600000, .i32⟩ : BufTy).Contents (Elt Ideal)) : IVec ⟨2, ![1600000, 1]⟩ 32 :=
  Cert.ReferenceIdeal.Read.val_main_v17 (F := Ideal) x2
/-- The neighbours' sum of 128-wide features h: gather along the edges, add into the destinations. -/
def aggOf128 (h : A128) (x1 x2 : (⟨Cert.ReferenceIdeal.S1600000, .i32⟩ : BufTy).Contents (Elt Ideal)) : A128 :=
  Cert.ReferenceIdeal.Read.val_main_v18 (F := Ideal) h x1 x2
/-- The neighbours' sum of 64-wide features p. -/
def aggOf64 (p : A64) (x1 x2 : (⟨Cert.ReferenceIdeal.S1600000, .i32⟩ : BufTy).Contents (Elt Ideal)) : A64 :=
  Host.scatterAdd scatter_S100000x64_S1600000x1_S1600000x64_1_0_0_1
    (broadcastInDim S100000x64 ![] bcast_S_S100000x64 (constant (F := Ideal) S_ .f32 0x00000000#32)) (dstIdx x2)
    (Host.gather gather_S100000x64_S1600000x1_S1600000x64_1_0_n_n_0_1_164 p (srcIdx x1))
/-- A 128-vector as a one-row matrix. -/
def row128 (b : Vec128) : Row128 := shapeCast S1x128 b shapeCasts_S128_S1x128
/-- A 64-vector as a one-row matrix. -/
def row64 (b : Vec64) : Row64 := shapeCast S1x64 b shapeCasts_S64_S1x64

/-- The first hidden layer, scale last. -/
def H1 (x0 : A128) (x1 x2 : (⟨Cert.ReferenceIdeal.S1600000, .i32⟩ : BufTy).Contents (Elt Ideal)) (x3 x4 : W128) (x5 : Vec128) : A128 :=
  hiddenK x0 (aggOf128 x0 x1 x2) (dOf x2) x3 x4 (row128 x5)
/-- The second hidden layer, scale last, of the first's output h1. -/
def H2 (h1 : A128) (x1 x2 : (⟨Cert.ReferenceIdeal.S1600000, .i32⟩ : BufTy).Contents (Elt Ideal)) (x6 x7 : W128) (x8 : Vec128) : A128 :=
  hiddenK h1 (aggOf128 h1 x1 x2) (dOf x2) x6 x7 (row128 x8)
/-- The last layer of the second's output h2, its neighbours projected before they are summed. -/
def OUT (h2 : A128) (x1 x2 : (⟨Cert.ReferenceIdeal.S1600000, .i32⟩ : BufTy).Contents (Elt Ideal)) (x9 x10 : W64) (x11 : Vec64) : A64 :=
  finalK h2 (aggOf64 (projK h2 x10) x1 x2) (dOf x2) x9 (row64 x11)

end Cert.KernelIdeal.Fold

end
-- ==== Proof.FoldRaw.lean ====
/-
  What each stretch of host operations computes, read off the program.

  Each stretch's results are read off the program as the host computations (the neighbours' sum, the column of
  reciprocal clamped in-degrees, a bias vector as a one-row matrix) of the contents the stretch found; rounding the
  features to a shorter float format before the gather and widening them after it is the identity at exact values.
-/
import proofs.«179563_j74792560492685_2_alg».proof.Proof.PatchedKernelIdealFrame
import proofs.«179563_j74792560492685_2_alg».proof.Proof.HostTerms
import Idealize.ShloMosaic.Lib.StableHlo.Run
import Idealize.ShloMosaic.PureOps.Ideal

set_option maxRecDepth 16384

noncomputable section

namespace Cert.KernelIdeal.Fold

open Idealize.ShloMosaic Idealize.ShloMosaic.TcCoe Idealize.ShloMosaic.Tactic Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

/-! ## The first stretch (from the launch memory) -/

set_option maxHeartbeats 8000000 in
theorem raw1_main_v8 : (W1 m ρ c (Proc.devRef .tc main_v8) : S100000x1.Idx → EReal) = dOf (m ((c : Thread nD τ).loc main_arg2)) := by
  show StableHlo.after hostOps0 (W0 m ρ c) (Proc.devRef .tc main_v8) = _
  after_results
  rfl

set_option maxHeartbeats 8000000 in
theorem raw1_main_v20 : (W1 m ρ c (Proc.devRef .tc main_v20) : S100000x128.Idx → EReal) = aggOf128 (m ((c : Thread nD τ).loc main_arg0)) (m ((c : Thread nD τ).loc main_arg1)) (m ((c : Thread nD τ).loc main_arg2)) := by
  show StableHlo.after hostOps0 (W0 m ρ c) (Proc.devRef .tc main_v20) = _
  after_results
  rfl

set_option maxHeartbeats 8000000 in
theorem raw1_main_v21 : (W1 m ρ c (Proc.devRef .tc main_v21) : S1x128.Idx → EReal) = row128 (m ((c : Thread nD τ).loc main_arg5)) := by
  show StableHlo.after hostOps0 (W0 m ρ c) (Proc.devRef .tc main_v21) = _
  after_results
  rfl

/-! ## The second stretch (after the first hidden layer) -/

set_option maxHeartbeats 8000000 in
theorem raw3_main_v34 : (W3 m ρ c (Proc.devRef .tc main_v34) : S100000x128.Idx → EReal) = aggOf128 (W2 m ρ c (Proc.devRef .tc main_v22)) (W2 m ρ c (Proc.devRef .tc main_arg1)) (W2 m ρ c (Proc.devRef .tc main_arg2)) := by
  show StableHlo.after hostOps1 (W2 m ρ c) (Proc.devRef .tc main_v34) = _
  after_results
  rfl

set_option maxHeartbeats 8000000 in
theorem raw3_main_v35 : (W3 m ρ c (Proc.devRef .tc main_v35) : S1x128.Idx → EReal) = row128 (W2 m ρ c (Proc.devRef .tc main_arg8)) := by
  show StableHlo.after hostOps1 (W2 m ρ c) (Proc.devRef .tc main_v35) = _
  after_results
  rfl

/-! ## The third stretch (after the projection) -/

set_option maxHeartbeats 8000000 in
theorem raw6_main_v49 : (W6 m ρ c (Proc.devRef .tc main_v49) : S100000x64.Idx → EReal) = aggOf64 (W5 m ρ c (Proc.devRef .tc main_v37)) (W5 m ρ c (Proc.devRef .tc main_arg1)) (W5 m ρ c (Proc.devRef .tc main_arg2)) := by
  show StableHlo.after hostOps3 (W5 m ρ c) (Proc.devRef .tc main_v49) = _
  after_results
  rfl

set_option maxHeartbeats 8000000 in
theorem raw6_main_v50 : (W6 m ρ c (Proc.devRef .tc main_v50) : S1x64.Idx → EReal) = row64 (W5 m ρ c (Proc.devRef .tc main_arg11)) := by
  show StableHlo.after hostOps3 (W5 m ρ c) (Proc.devRef .tc main_v50) = _
  after_results
  rfl

end Cert.KernelIdeal.Fold

end
-- ==== Proof.KernelValue.lean ====
/-
  The idealized kernel's result as one expression of the launch arrays.

  Walking the program's fold of host stretches and regions from the launch memory: the first hidden layer's output is
  the layer formula of the node features, their neighbours' sum and the reciprocal-degree column; the second hidden
  layer's output is the same formula of the first's; the projection multiplies that by the last neighbour weight
  matrix; the last region adds the projected neighbours' sum, scaled, to the own-feature product and the bias. Each
  region's output array is its whole-array function of what the region finds, and what it finds is what the earlier
  steps left, every buffer nothing wrote being unchanged.
-/
import proofs.«179563_j74792560492685_2_alg».proof.Proof.KernelRun
import proofs.«179563_j74792560492685_2_alg».proof.Proof.Regions
import proofs.«179563_j74792560492685_2_alg».proof.Proof.FoldKeep
import proofs.«179563_j74792560492685_2_alg».proof.Proof.FoldRaw

set_option maxRecDepth 16384

noncomputable section

namespace Cert.KernelIdeal.Fold

open Idealize.ShloMosaic Idealize.ShloMosaic.TcCoe Idealize.ShloMosaic.Tactic Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

/-! ## Congruences of the whole-array functions -/

theorem hiddenK_congr {h h' agg agg' : A128} {d d' : Col} {Ws Ws' Wn Wn' : W128} {b b' : Row128}
    (e1 : h = h') (e2 : agg = agg') (e3 : d = d') (e4 : Ws = Ws') (e5 : Wn = Wn') (e6 : b = b') :
    hiddenK h agg d Ws Wn b = hiddenK h' agg' d' Ws' Wn' b' := by subst e1 e2 e3 e4 e5 e6; rfl
theorem projK_congr {h h' : A128} {W W' : W64} (e1 : h = h') (e2 : W = W') : projK h W = projK h' W' := by
  subst e1 e2; rfl
theorem finalK_congr {h h' : A128} {g g' : A64} {d d' : Col} {Ws Ws' : W64} {b b' : Row64}
    (e1 : h = h') (e2 : g = g') (e3 : d = d') (e4 : Ws = Ws') (e5 : b = b') :
    finalK h g d Ws b = finalK h' g' d' Ws' b' := by subst e1 e2 e3 e4 e5; rfl
theorem aggOf128_congr {h h' : A128} {x1 x1' x2 x2' : (⟨Cert.ReferenceIdeal.S1600000, .i32⟩ : BufTy).Contents (Elt Ideal)} (e1 : h = h') (e2 : x1 = x1') (e3 : x2 = x2') :
    aggOf128 h x1 x2 = aggOf128 h' x1' x2' := by subst e1 e2 e3; rfl
theorem aggOf64_congr {p p' : A64} {x1 x1' x2 x2' : (⟨Cert.ReferenceIdeal.S1600000, .i32⟩ : BufTy).Contents (Elt Ideal)} (e1 : p = p') (e2 : x1 = x1') (e3 : x2 = x2') :
    aggOf64 p x1 x2 = aggOf64 p' x1' x2' := by subst e1 e2 e3; rfl

/-! ## The kernel's values over the launch arrays -/

/-- The first hidden layer's output. -/
def h1K : A128 := hiddenK (m ((c : Thread nD τ).loc main_arg0)) (aggOf128 (m ((c : Thread nD τ).loc main_arg0)) (m ((c : Thread nD τ).loc main_arg1)) (m ((c : Thread nD τ).loc main_arg2))) (dOf (m ((c : Thread nD τ).loc main_arg2))) (m ((c : Thread nD τ).loc main_arg3)) (m ((c : Thread nD τ).loc main_arg4)) (row128 (m ((c : Thread nD τ).loc main_arg5)))
/-- The second hidden layer's output. -/
def h2K : A128 := hiddenK (h1K m c) (aggOf128 (h1K m c) (m ((c : Thread nD τ).loc main_arg1)) (m ((c : Thread nD τ).loc main_arg2))) (dOf (m ((c : Thread nD τ).loc main_arg2))) (m ((c : Thread nD τ).loc main_arg6)) (m ((c : Thread nD τ).loc main_arg7)) (row128 (m ((c : Thread nD τ).loc main_arg8)))
/-- The second hidden layer's output projected by the last neighbour weight matrix. -/
def pK : A64 := projK (h2K m c) (m ((c : Thread nD τ).loc main_arg10))
/-- The result. -/
def outK : A64 := finalK (h2K m c) (aggOf64 (pK m c) (m ((c : Thread nD τ).loc main_arg1)) (m ((c : Thread nD τ).loc main_arg2))) (dOf (m ((c : Thread nD τ).loc main_arg2))) (m ((c : Thread nD τ).loc main_arg9)) (row64 (m ((c : Thread nD τ).loc main_arg11)))

/-! ## Through the fold -/

set_option maxHeartbeats 8000000 in
theorem v2_22 : (W2 m ρ c (Proc.devRef .tc main_v22) : S100000x128.Idx → EReal) = h1K m c :=
  ((W2_arr m ρ c 6).trans (Blocks.arr0 (V1 m ρ) c)).trans
    (hiddenK_congr (k1_main_arg0 m ρ c) (raw1_main_v20 m ρ c) (raw1_main_v8 m ρ c) (k1_main_arg3 m ρ c) (k1_main_arg4 m ρ c) (raw1_main_v21 m ρ c))
set_option maxHeartbeats 8000000 in
theorem v3_22 : (W3 m ρ c (Proc.devRef .tc main_v22) : S100000x128.Idx → EReal) = h1K m c :=
  (s3_main_v22 m ρ c).trans (v2_22 m ρ c)
set_option maxHeartbeats 8000000 in
theorem d3 : (W3 m ρ c (Proc.devRef .tc main_v8) : S100000x1.Idx → EReal) = dOf (m ((c : Thread nD τ).loc main_arg2)) :=
  (s3_main_v8 m ρ c).trans ((s2_main_v8 m ρ c).trans (raw1_main_v8 m ρ c))
set_option maxHeartbeats 8000000 in
theorem v3_34 : (W3 m ρ c (Proc.devRef .tc main_v34) : S100000x128.Idx → EReal) = aggOf128 (h1K m c) (m ((c : Thread nD τ).loc main_arg1)) (m ((c : Thread nD τ).loc main_arg2)) :=
  (raw3_main_v34 m ρ c).trans (aggOf128_congr (v2_22 m ρ c) (k2_main_arg1 m ρ c) (k2_main_arg2 m ρ c))
set_option maxHeartbeats 8000000 in
theorem v3_35 : (W3 m ρ c (Proc.devRef .tc main_v35) : S1x128.Idx → EReal) = row128 (m ((c : Thread nD τ).loc main_arg8)) :=
  (raw3_main_v35 m ρ c).trans (congrArg row128 (k2_main_arg8 m ρ c))
set_option maxHeartbeats 8000000 in
theorem v4_36 : (W4 m ρ c (Proc.devRef .tc main_v36) : S100000x128.Idx → EReal) = h2K m c :=
  ((W4_arr m ρ c 6).trans (Blocks.arr1 (V3 m ρ) c)).trans
    (hiddenK_congr (v3_22 m ρ c) (v3_34 m ρ c) (d3 m ρ c) (k3_main_arg6 m ρ c) (k3_main_arg7 m ρ c) (v3_35 m ρ c))
set_option maxHeartbeats 8000000 in
theorem v5_37 : (W5 m ρ c (Proc.devRef .tc main_v37) : S100000x64.Idx → EReal) = pK m c :=
  ((W5_arr m ρ c 2).trans (Blocks.arr2 (V4 m ρ) c)).trans (projK_congr (v4_36 m ρ c) (k4_main_arg10 m ρ c))
set_option maxHeartbeats 8000000 in
theorem v6_36 : (W6 m ρ c (Proc.devRef .tc main_v36) : S100000x128.Idx → EReal) = h2K m c :=
  (s6_main_v36 m ρ c).trans ((s5_main_v36 m ρ c).trans (v4_36 m ρ c))
set_option maxHeartbeats 8000000 in
theorem d6 : (W6 m ρ c (Proc.devRef .tc main_v8) : S100000x1.Idx → EReal) = dOf (m ((c : Thread nD τ).loc main_arg2)) :=
  (s6_main_v8 m ρ c).trans ((s5_main_v8 m ρ c).trans ((s4_main_v8 m ρ c).trans (d3 m ρ c)))
set_option maxHeartbeats 8000000 in
theorem v6_49 : (W6 m ρ c (Proc.devRef .tc main_v49) : S100000x64.Idx → EReal) = aggOf64 (pK m c) (m ((c : Thread nD τ).loc main_arg1)) (m ((c : Thread nD τ).loc main_arg2)) :=
  (raw6_main_v49 m ρ c).trans (aggOf64_congr (v5_37 m ρ c) (k5_main_arg1 m ρ c) (k5_main_arg2 m ρ c))
set_option maxHeartbeats 8000000 in
theorem v6_50 : (W6 m ρ c (Proc.devRef .tc main_v50) : S1x64.Idx → EReal) = row64 (m ((c : Thread nD τ).loc main_arg11)) :=
  (raw6_main_v50 m ρ c).trans (congrArg row64 (k5_main_arg11 m ρ c))
set_option maxHeartbeats 8000000 in
/-- THE RESULT BUFFER at the end of the fold. -/
theorem v7_51 : (W7 m ρ c (Proc.devRef .tc main_v51) : S100000x64.Idx → EReal) = outK m c :=
  ((W7_arr m ρ c 5).trans (Blocks.arr3 (V6 m ρ) c)).trans
    (finalK_congr (v6_36 m ρ c) (v6_49 m ρ c) (d6 m ρ c) (k6_main_arg9 m ρ c) (v6_50 m ρ c))

end Cert.KernelIdeal.Fold

end
-- ==== Proof.RefLayers.lean ====
/-
The reference network read one entry at a time, at exact extended-real values.

The reference computes three layers.  A hidden layer takes the node features h, the summed
neighbour features agg, the column d of reciprocal clamped in-degrees, two weight matrices
Ws and Wn and a bias vector b, and produces, at node n and output feature j,

    max ( Σ_k h[n,k] * Ws[k,j]  +  Σ_k (agg[n,k] * d[n,0]) * Wn[k,j]  +  b[j] , 0 ).

The last layer is the same expression without the clipping at zero, with 64 output features.

Each statement below unfolds one layer of the reference, operation by operation (clipping,
additions, the two matrix products, the row-wise scaling, the broadcasts of d and of b), down
to the previous layer's output, the summed neighbour features and the column d, all three of
which stay opaque.  The only work is bookkeeping of indices: every broadcast and every matrix
product reads its operands at an index computed from the output index (n, j) and the
contraction position k, and those computed indices are identified with the plain pairs
(n, k), (k, j), (n, 0) and the single coordinate j.  The zero that the clipping compares
against is the 32-bit float zero, whose exact value is the extended real 0.
-/
import proofs.«179563_j74792560492685_2_alg».proof.Proof.Gen.ReferenceIdeal.Read
import proofs.«179563_j74792560492685_2_alg».proof.Proof.Spec
import Idealize.ShloMosaic.Lib.ValueIdx
import Idealize.ShloMosaic.PureOps.Ideal.Laws

noncomputable section

namespace Cert.Sage.Ref

open Cert.ReferenceIdeal Cert.ReferenceIdeal.Gen Cert.ReferenceIdeal.Read
open Idealize.ShloMosaic Idealize.ShloMosaic.ValueIdx

/-- The 32-bit float zero constant has exact value 0. -/
theorem zero_const : FloatOps.ofBits (F := Ideal) .f32 0x00000000#32 = (0 : EReal) := by
  rw [Ideal.ofBits_def, Ideal.ofBits_zero_f32]

/-- First hidden layer: entry (n, j) of the reference's first clipped layer is the scale-first
hidden-layer expression in the input features, the summed neighbour features and the degree column. -/
theorem R1 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal))
    (n : Fin 100000) (j : Fin 128) :
    val_main_v27 (F := Ideal) x0 x1 x2 x3 x4 x5 (ix2 n j)
      = Cert.Sage.refHiddenE x0 (val_main_v18 (F := Ideal) x0 x1 x2) (val_main_v8 (F := Ideal) x2)
          x3 x4 x5 n j := by
  rw [val_main_v27_apply, val_main_call0_v0_apply, val_main_call0_cst_apply, val_main_v26_apply, val_main_v23_apply]
  rw [val_main_v21_apply]
  rw [val_main_v22_apply]
  rw [val_main_v25_apply, val_main_v24_apply]
  have hl21 : ∀ k : Fin 128, lidx_main_v21 (ix2 n j) k = ix2 n k := fun k =>
    funext fun a => by match a with | ⟨0, _⟩ => rfl | ⟨1, _⟩ => rfl
  have hr21 : ∀ k : Fin 128, ridx_main_v21 (ix2 n j) k = ix2 k j := fun k =>
    funext fun a => by match a with | ⟨0, _⟩ => rfl | ⟨1, _⟩ => rfl
  have hl22 : ∀ k : Fin 128, lidx_main_v22 (ix2 n j) k = ix2 n k := fun k =>
    funext fun a => by match a with | ⟨0, _⟩ => rfl | ⟨1, _⟩ => rfl
  have hr22 : ∀ k : Fin 128, ridx_main_v22 (ix2 n j) k = ix2 k j := fun k =>
    funext fun a => by match a with | ⟨0, _⟩ => rfl | ⟨1, _⟩ => rfl
  have hd : ∀ k : Fin 128, idx_main_v19 (ix2 n k) = ix2 n 0 := fun k =>
    funext fun a => by match a with | ⟨0, _⟩ => rfl | ⟨1, _⟩ => rfl
  have hb : idx_main_v24 (idx_main_v25 (ix2 n j)) = ix1 j :=
    funext fun a => by match a with | ⟨0, _⟩ => rfl
  have hscale : ∀ k : Fin 128, val_main_v20 (F := Ideal) x0 x1 x2 (ix2 n k)
      = val_main_v18 (F := Ideal) x0 x1 x2 (ix2 n k) * val_main_v8 (F := Ideal) x2 (ix2 n 0) := by
    intro k
    rw [val_main_v20_apply, val_main_v19_apply, hd]
    rfl
  have e1 : (∑ k : Fin 128, x0 (lidx_main_v21 (ix2 n j) k) * x3 (ridx_main_v21 (ix2 n j) k))
      = ∑ k : Fin 128, x0 (ix2 n k) * x3 (ix2 k j) :=
    Finset.sum_congr rfl fun k _ => by rw [hl21, hr21]
  have e2 : (∑ k : Fin 128, val_main_v20 (F := Ideal) x0 x1 x2 (lidx_main_v22 (ix2 n j) k)
        * x4 (ridx_main_v22 (ix2 n j) k))
      = ∑ k : Fin 128, (val_main_v18 (F := Ideal) x0 x1 x2 (ix2 n k) * val_main_v8 (F := Ideal) x2 (ix2 n 0))
        * x4 (ix2 k j) :=
    Finset.sum_congr rfl fun k _ => by rw [hl22, hr22, hscale]
  rw [e1, e2, hb, zero_const]
  rfl

/-- Second hidden layer: entry (n, j) of the reference's second clipped layer is the scale-first
hidden-layer expression in the first layer's output, its summed neighbour features and the degree column. -/
theorem R2 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal))
    (n : Fin 100000) (j : Fin 128) :
    val_main_v46 (F := Ideal) x0 x1 x2 x3 x4 x5 x6 x7 x8 (ix2 n j)
      = Cert.Sage.refHiddenE (val_main_v27 (F := Ideal) x0 x1 x2 x3 x4 x5) (val_main_v37 (F := Ideal) x0 x1 x2 x3 x4 x5) (val_main_v8 (F := Ideal) x2)
          x6 x7 x8 n j := by
  rw [val_main_v46_apply, val_main_call1_v0_apply, val_main_call1_cst_apply, val_main_v45_apply, val_main_v42_apply]
  rw [val_main_v40_apply]
  rw [val_main_v41_apply]
  rw [val_main_v44_apply, val_main_v43_apply]
  have hl40 : ∀ k : Fin 128, lidx_main_v40 (ix2 n j) k = ix2 n k := fun k =>
    funext fun a => by match a with | ⟨0, _⟩ => rfl | ⟨1, _⟩ => rfl
  have hr40 : ∀ k : Fin 128, ridx_main_v40 (ix2 n j) k = ix2 k j := fun k =>
    funext fun a => by match a with | ⟨0, _⟩ => rfl | ⟨1, _⟩ => rfl
  have hl41 : ∀ k : Fin 128, lidx_main_v41 (ix2 n j) k = ix2 n k := fun k =>
    funext fun a => by match a with | ⟨0, _⟩ => rfl | ⟨1, _⟩ => rfl
  have hr41 : ∀ k : Fin 128, ridx_main_v41 (ix2 n j) k = ix2 k j := fun k =>
    funext fun a => by match a with | ⟨0, _⟩ => rfl | ⟨1, _⟩ => rfl
  have hd : ∀ k : Fin 128, idx_main_v38 (ix2 n k) = ix2 n 0 := fun k =>
    funext fun a => by match a with | ⟨0, _⟩ => rfl | ⟨1, _⟩ => rfl
  have hb : idx_main_v43 (idx_main_v44 (ix2 n j)) = ix1 j :=
    funext fun a => by match a with | ⟨0, _⟩ => rfl
  have hscale : ∀ k : Fin 128, val_main_v39 (F := Ideal) x0 x1 x2 x3 x4 x5 (ix2 n k)
      = val_main_v37 (F := Ideal) x0 x1 x2 x3 x4 x5 (ix2 n k) * val_main_v8 (F := Ideal) x2 (ix2 n 0) := by
    intro k
    rw [val_main_v39_apply, val_main_v38_apply, hd]
    rfl
  have e1 : (∑ k : Fin 128, (val_main_v27 (F := Ideal) x0 x1 x2 x3 x4 x5) (lidx_main_v40 (ix2 n j) k) * x6 (ridx_main_v40 (ix2 n j) k))
      = ∑ k : Fin 128, (val_main_v27 (F := Ideal) x0 x1 x2 x3 x4 x5) (ix2 n k) * x6 (ix2 k j) :=
    Finset.sum_congr rfl fun k _ => by rw [hl40, hr40]
  have e2 : (∑ k : Fin 128, val_main_v39 (F := Ideal) x0 x1 x2 x3 x4 x5 (lidx_main_v41 (ix2 n j) k)
        * x7 (ridx_main_v41 (ix2 n j) k))
      = ∑ k : Fin 128, (val_main_v37 (F := Ideal) x0 x1 x2 x3 x4 x5 (ix2 n k) * val_main_v8 (F := Ideal) x2 (ix2 n 0))
        * x7 (ix2 k j) :=
    Finset.sum_congr rfl fun k _ => by rw [hl41, hr41, hscale]
  rw [e1, e2, hb, zero_const]
  rfl

/-- Last layer: entry (n, j) of the reference's result is the scale-first final-layer expression (no clipping)
in the second layer's output, its summed neighbour features and the degree column. -/
theorem R3 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S128x64, .f32⟩ : BufTy).Contents (Elt Ideal)) (x11 : (⟨S64, .f32⟩ : BufTy).Contents (Elt Ideal))
    (n : Fin 100000) (j : Fin 64) :
    val_main_v64 (F := Ideal) x0 x1 x2 x3 x4 x5 x6 x7 x8 x9 x10 x11 (ix2 n j)
      = Cert.Sage.refFinalE (val_main_v46 (F := Ideal) x0 x1 x2 x3 x4 x5 x6 x7 x8) (val_main_v56 (F := Ideal) x0 x1 x2 x3 x4 x5 x6 x7 x8) (val_main_v8 (F := Ideal) x2)
          x9 x10 x11 n j := by
  rw [val_main_v64_apply, val_main_v61_apply]
  rw [val_main_v59_apply]
  rw [val_main_v60_apply]
  rw [val_main_v63_apply, val_main_v62_apply]
  have hl59 : ∀ k : Fin 128, lidx_main_v59 (ix2 n j) k = ix2 n k := fun k =>
    funext fun a => by match a with | ⟨0, _⟩ => rfl | ⟨1, _⟩ => rfl
  have hr59 : ∀ k : Fin 128, ridx_main_v59 (ix2 n j) k = ix2 k j := fun k =>
    funext fun a => by match a with | ⟨0, _⟩ => rfl | ⟨1, _⟩ => rfl
  have hl60 : ∀ k : Fin 128, lidx_main_v60 (ix2 n j) k = ix2 n k := fun k =>
    funext fun a => by match a with | ⟨0, _⟩ => rfl | ⟨1, _⟩ => rfl
  have hr60 : ∀ k : Fin 128, ridx_main_v60 (ix2 n j) k = ix2 k j := fun k =>
    funext fun a => by match a with | ⟨0, _⟩ => rfl | ⟨1, _⟩ => rfl
  have hd : ∀ k : Fin 128, idx_main_v57 (ix2 n k) = ix2 n 0 := fun k =>
    funext fun a => by match a with | ⟨0, _⟩ => rfl | ⟨1, _⟩ => rfl
  have hb : idx_main_v62 (idx_main_v63 (ix2 n j)) = ix1 j :=
    funext fun a => by match a with | ⟨0, _⟩ => rfl
  have hscale : ∀ k : Fin 128, val_main_v58 (F := Ideal) x0 x1 x2 x3 x4 x5 x6 x7 x8 (ix2 n k)
      = val_main_v56 (F := Ideal) x0 x1 x2 x3 x4 x5 x6 x7 x8 (ix2 n k) * val_main_v8 (F := Ideal) x2 (ix2 n 0) := by
    intro k
    rw [val_main_v58_apply, val_main_v57_apply, hd]
    rfl
  have e1 : (∑ k : Fin 128, (val_main_v46 (F := Ideal) x0 x1 x2 x3 x4 x5 x6 x7 x8) (lidx_main_v59 (ix2 n j) k) * x9 (ridx_main_v59 (ix2 n j) k))
      = ∑ k : Fin 128, (val_main_v46 (F := Ideal) x0 x1 x2 x3 x4 x5 x6 x7 x8) (ix2 n k) * x9 (ix2 k j) :=
    Finset.sum_congr rfl fun k _ => by rw [hl59, hr59]
  have e2 : (∑ k : Fin 128, val_main_v58 (F := Ideal) x0 x1 x2 x3 x4 x5 x6 x7 x8 (lidx_main_v60 (ix2 n j) k)
        * x10 (ridx_main_v60 (ix2 n j) k))
      = ∑ k : Fin 128, (val_main_v56 (F := Ideal) x0 x1 x2 x3 x4 x5 x6 x7 x8 (ix2 n k) * val_main_v8 (F := Ideal) x2 (ix2 n 0))
        * x10 (ix2 k j) :=
    Finset.sum_congr rfl fun k _ => by rw [hl60, hr60, hscale]
  rw [e1, e2, hb]
  rfl

end Cert.Sage.Ref

end
-- ==== Proof.ERealLaws.lean ====
/-
Arithmetic laws for extended reals (the reals together with +∞ and -∞).

Multiplication of extended reals does not distribute over addition in general,
because +∞ + -∞ is degenerate.  Two safe situations are recorded here.

* A factor `d` with `0 ≤ d < +∞` distributes over every extended-real sum, with
  no hypothesis on the summands.  Consequently, scaling each term `a k` of a
  weighted sum `∑ k, a k * w k` by such a `d` scales the whole sum by `d`.
* When every term is finite, all of the arithmetic takes place inside the reals,
  where sums may be exchanged and a factor may be moved across a sum freely.
  This yields the exchange of a weighted sum over `k` with a masked sum over `e`.

Finally, for every extended real `x` the quotient `1 / max x 1` is a finite
number in `[0, +∞)`: the divisor is at least `1`, hence positive and nonzero, and
the inverse of an extended real that is at least `1` is nonnegative and never +∞
(the inverse of +∞ being `0`).
-/
import Mathlib.Data.EReal.Basic
import Mathlib.Data.EReal.Operations
import Mathlib.Data.EReal.Inv
import Mathlib.Algebra.BigOperators.Group.Finset.Basic
import Idealize.ShloMosaic.PureOps.Ideal

namespace Cert.Lib.ERealLaws

open scoped BigOperators

/-- An extended real is finite when it is neither +∞ nor -∞. -/
def IsFin (x : EReal) : Prop := x ≠ ⊤ ∧ x ≠ ⊥

/-- Every real number, viewed as an extended real, is finite. -/
theorem isFin_coe (r : ℝ) : IsFin (r : EReal) :=
  ⟨EReal.coe_ne_top r, EReal.coe_ne_bot r⟩

/-- Zero is finite. -/
theorem isFin_zero : IsFin (0 : EReal) := by
  simpa using isFin_coe 0

/-- A finite extended real is the image of a real number. -/
theorem IsFin.exists_coe {x : EReal} (h : IsFin x) : ∃ r : ℝ, x = (r : EReal) := by
  lift x to ℝ using h
  exact ⟨x, rfl⟩

/-- The sum of two finite extended reals is finite. -/
theorem IsFin.add {x y : EReal} (hx : IsFin x) (hy : IsFin y) : IsFin (x + y) := by
  lift x to ℝ using hx
  lift y to ℝ using hy
  rw [← EReal.coe_add]
  exact isFin_coe _

/-- The product of two finite extended reals is finite. -/
theorem IsFin.mul {x y : EReal} (hx : IsFin x) (hy : IsFin y) : IsFin (x * y) := by
  lift x to ℝ using hx
  lift y to ℝ using hy
  rw [← EReal.coe_mul]
  exact isFin_coe _

/-- The maximum of two finite extended reals is finite (it is one of the two). -/
theorem IsFin.max {x y : EReal} (hx : IsFin x) (hy : IsFin y) : IsFin (max x y) := by
  rcases max_choice x y with h | h <;> rw [h] <;> assumption

/-- A finite sum of finite extended reals is finite. -/
theorem isFin_sum {ι : Type*} (s : Finset ι) (f : ι → EReal)
    (h : ∀ i ∈ s, IsFin (f i)) : IsFin (∑ i ∈ s, f i) := by
  classical
  induction s using Finset.induction_on with
  | empty => simpa using isFin_zero
  | insert a s ha ih =>
    rw [Finset.sum_insert ha]
    exact (h a (Finset.mem_insert_self a s)).add
      (ih (fun i hi => h i (Finset.mem_insert_of_mem hi)))

/-- Masking a finite extended real by a condition (value or zero) keeps it finite. -/
theorem isFin_ite_zero {x : EReal} (p : Prop) [Decidable p] (h : IsFin x) :
    IsFin (if p then x else 0) := by
  split_ifs
  · exact h
  · exact isFin_zero

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- Scaling every coefficient `a k` of a weighted sum `∑ k, a k * w k` by a factor `d`
with `0 ≤ d < +∞` scales the whole sum by `d`; no finiteness of `a` or `w` is needed. -/
theorem sum_mul_scale {ι : Type} [Fintype ι] (a w : ι → EReal) (d : EReal)
    (hd0 : 0 ≤ d) (hdt : d ≠ ⊤) :
    ∑ k, (a k * d) * w k = (∑ k, a k * w k) * d := by
  classical
  have key : ∀ s : Finset ι,
      ∑ k ∈ s, (a k * d) * w k = (∑ k ∈ s, a k * w k) * d := by
    intro s
    induction s using Finset.induction_on with
    | empty => simp
    | insert i s hi ih =>
      rw [Finset.sum_insert hi, Finset.sum_insert hi, ih,
        EReal.right_distrib_of_nonneg_of_ne_top hd0 hdt, mul_right_comm]
  exact key Finset.univ

/-- For finite data, a weighted sum over `k` of masked sums over `e` equals the masked sum
over `e` of the weighted sums over `k` (both sides carry a leading `0 +`). -/
theorem edge_sum_mul {E K : Type} [Fintype E] [Fintype K] (hit : E → Prop)
    [DecidablePred hit] (x : E → K → EReal) (w : K → EReal)
    (hx : ∀ e k, IsFin (x e k)) (hw : ∀ k, IsFin (w k)) :
    ∑ k, (0 + ∑ e, if hit e then x e k else 0) * w k
      = 0 + ∑ e, if hit e then ∑ k, x e k * w k else 0 := by
  choose xr hxr using fun e k => (hx e k).exists_coe
  choose wr hwr using fun k => (hw k).exists_coe
  obtain rfl : x = fun e k => (xr e k : EReal) := by
    funext e k; exact hxr e k
  obtain rfl : w = fun k => (wr k : EReal) := funext hwr
  have hite : ∀ (e : E) (r : ℝ),
      (if hit e then (r : EReal) else 0) = ((if hit e then r else 0 : ℝ) : EReal) := by
    intro e r
    split_ifs <;> simp
  have hL : ∀ k, (0 + ∑ e, if hit e then ((xr e k : ℝ) : EReal) else 0) * (wr k : EReal)
      = ((∑ e, if hit e then xr e k * wr k else 0 : ℝ) : EReal) := by
    intro k
    simp_rw [hite]
    rw [zero_add, ← coe_sum, ← EReal.coe_mul, Finset.sum_mul]
    congr 1
    refine Finset.sum_congr rfl (fun e _ => ?_)
    split_ifs <;> simp
  have hR : ∀ e, (if hit e then ∑ k, ((xr e k : ℝ) : EReal) * (wr k : EReal) else 0)
      = ((∑ k, if hit e then xr e k * wr k else 0 : ℝ) : EReal) := by
    intro e
    split_ifs
    · rw [coe_sum]
      refine Finset.sum_congr rfl (fun k _ => ?_)
      rw [EReal.coe_mul]
    · simp
  simp only [hL, hR]
  rw [zero_add, ← coe_sum, ← coe_sum, Finset.sum_comm]

/-- For every extended real `x`, the quotient `1 / max x 1` is nonnegative and is not +∞. -/
theorem inv_clamped (x : EReal) :
    0 ≤ Idealize.ShloMosaic.Ideal.div 1 (max x 1)
      ∧ Idealize.ShloMosaic.Ideal.div 1 (max x 1) ≠ ⊤ := by
  have h1 : (1 : EReal) ≤ max x 1 := le_max_right x 1
  have hpos : (0 : EReal) < max x 1 := lt_of_lt_of_le zero_lt_one h1
  have hne : max x 1 ≠ 0 := hpos.ne'
  have hdiv : Idealize.ShloMosaic.Ideal.div 1 (max x 1) = (max x 1)⁻¹ := by
    unfold Idealize.ShloMosaic.Ideal.div
    rw [if_neg hne, one_mul]
  rw [hdiv]
  exact ⟨EReal.inv_nonneg_of_nonneg hpos.le, (EReal.inv_lt_top _).ne⟩

/-- For every extended real `x`, the quotient `1 / max x 1` is finite. -/
theorem isFin_inv_clamped (x : EReal) :
    IsFin (Idealize.ShloMosaic.Ideal.div 1 (max x 1)) :=
  ⟨(inv_clamped x).2, (lt_of_lt_of_le EReal.bot_lt_zero (inv_clamped x).1).ne'⟩

end Cert.Lib.ERealLaws
-- ==== Proof.DegCol.lean ====
/-
The column of reciprocal clamped in-degrees, read one node at a time, at exact extended-real values.

The reference forms, for every node n, the number deg n of edges arriving at n (an accumulation
of ones, which stays opaque here), clamps it from below by 1, and takes the reciprocal:

    d[n, 0] = 1 / max (deg n, 1).

The first statement unfolds the reference's operations (the broadcast into a column, the division,
the maximum, and the two constant vectors of ones) to exactly this expression; the only facts used
are that the computed index of the column entry (n, 0) in the degree vector is n, and that the
32-bit float word of the constant denotes the number 1.

Since the divisor is at least 1, the quotient is a nonnegative number that is not +∞, hence finite;
this gives the remaining statements, the last one for an arbitrary index of the column (whose
second coordinate ranges over a one-element set and is therefore 0).
-/
import proofs.«179563_j74792560492685_2_alg».proof.Proof.Gen.ReferenceIdeal.Read
import proofs.«179563_j74792560492685_2_alg».proof.Proof.ERealLaws
import Idealize.ShloMosaic.Lib.ValueIdx
import Idealize.ShloMosaic.PureOps.Ideal.Laws

noncomputable section

namespace Cert.Sage.Ref

open Cert.ReferenceIdeal Cert.ReferenceIdeal.Gen Cert.ReferenceIdeal.Read
open Idealize.ShloMosaic Idealize.ShloMosaic.ValueIdx
open Cert.Lib.ERealLaws

/-- The 32-bit float word of the constant 1.0 has exact value 1. -/
theorem one_const : FloatOps.ofBits (F := Ideal) .f32 0x3F800000#32 = (1 : EReal) := by
  rw [Ideal.ofBits_def]
  simp [Ideal.ofBits, Ideal.ieee, -EReal.coe_mul]
  norm_num

/-- Entry (n, 0) of the degree column is 1 divided by the in-degree of n clamped from below by 1. -/
theorem d_apply (x2 : (⟨S1600000, .i32⟩ : BufTy).Contents (Elt Ideal)) (n : Fin 100000) :
    val_main_v8 (F := Ideal) x2 (ix2 n (0 : Fin 1))
      = Idealize.ShloMosaic.Ideal.div 1 (max (val_main_v3 (F := Ideal) x2 (ix1 n)) 1) := by
  have hi : idx_main_v8 (ix2 n (0 : Fin 1)) = ix1 n :=
    funext fun a => by match a with | ⟨0, _⟩ => rfl
  rw [val_main_v8_apply, hi, val_main_v7_apply, val_main_v6_apply, val_main_cst_2_apply,
    val_main_v5_apply, val_main_v4_apply, val_main_cst_1_apply, one_const]
  rfl

/-- Every entry (n, 0) of the degree column is nonnegative. -/
theorem d_nonneg (x2 : (⟨S1600000, .i32⟩ : BufTy).Contents (Elt Ideal)) (n : Fin 100000) :
    0 ≤ val_main_v8 (F := Ideal) x2 (ix2 n (0 : Fin 1)) := by
  rw [d_apply]
  exact (inv_clamped _).1

/-- No entry (n, 0) of the degree column is +∞. -/
theorem d_ne_top (x2 : (⟨S1600000, .i32⟩ : BufTy).Contents (Elt Ideal)) (n : Fin 100000) :
    val_main_v8 (F := Ideal) x2 (ix2 n (0 : Fin 1)) ≠ ⊤ := by
  rw [d_apply]
  exact (inv_clamped _).2

/-- Every entry of the degree column is finite. -/
theorem d_isFin (x2 : (⟨S1600000, .i32⟩ : BufTy).Contents (Elt Ideal)) (i : S100000x1.Idx) :
    IsFin (val_main_v8 (F := Ideal) x2 i) := by
  obtain ⟨n, rfl⟩ : ∃ n : Fin 100000, i = ix2 n (0 : Fin 1) := by
    refine ⟨(i 0 : Fin 100000), ?_⟩
    funext a
    match a with
    | ⟨0, _⟩ => rfl
    | ⟨1, _⟩ => exact Fin.ext (Nat.lt_one_iff.mp (idx2_lt1 i))
  rw [d_apply]
  exact isFin_inv_clamped _

end Cert.Sage.Ref

end
-- ==== Proof.LibScatterSplit.lean ====
/-
  ONE ACCUMULATING SCATTER OF THREE INTERLEAVED ARRAYS IS THREE SCATTERS IN TURN (at the ideal instance).

  An accumulating scatter along rows adds, to element (b, v) of a [B, V] operand, every update element (b, q) of a
  [B, N] update array whose index entry q of an [N, 1] index array, read as a signed integer, is v; an entry outside
  [0, V) lands nowhere. At the ideal instance the elements are extended reals and the result is the operand's element
  plus the sum of the updates landing on it.

  If a long axis of extent 3N interleaves three arrays of extent N (position 3p + k holds entry p of the k-th), the
  sum over the long axis splits, by the bijection (p, k) to 3p + k, into the three sums over p; addition of extended
  reals is commutative and associative, so the one scatter over the long axis equals the three scatters applied one
  after the other, whatever the values and whatever the indices (colliding, negative or out of range included).

  The statements: the coordinate reading of the landing condition (resultIdx?_eq_some_iff for any dimension numbers,
  resultIdx?_rows for a scatter along rows), the scatter read at one element (hostScatterAdd_rows_apply), the
  bijection (interleave3), the split of the row sum (rowSum_interleave3) and the theorem in four forms: general
  extents or the extents 8, 6890, 1048576, 3145728; the three arrays as a family over k or named one by one.
-/
import Idealize.ShloMosaic.Lib.ValueIdx

noncomputable section

open scoped BigOperators

namespace Cert.Lib.ScatterSplit

open Idealize.ShloMosaic Idealize.ShloMosaic.ValueIdx

/-- An update index lands on a result index exactly when, on every operand axis, the result coordinate is the
    start plus the window coordinate. -/
theorem resultIdx?_eq_some_iff {s si u : Shape} (d : ScatterDims s si u) {w : Nat} (j : u.Idx) (idx : IVec si w)
    (i : s.Idx) :
    d.resultIdx? j idx = some i ↔ ∀ a, ((i a).val : Int) = d.start j idx a + d.window j a := by
  unfold ScatterDims.resultIdx?
  split_ifs with h
  · constructor
    · intro heq a
      have := Option.some.inj heq
      subst this
      show ((d.start j idx a + d.window j a).toNat : Int) = _
      exact Int.toNat_of_nonneg (h a).1
    · intro heq
      congr 1
      funext a
      refine Fin.ext ?_
      show (d.start j idx a + d.window j a).toNat = (i a).val
      have := heq a
      omega
  · constructor
    · intro heq
      exact absurd heq (by simp)
    · intro heq
      exfalso
      apply h
      intro a
      have := heq a
      have := (i a).isLt
      omega

/-- A scatter along rows (update window axis 0, inserted operand axis 1, the one start component going to operand
    axis 1, the index vector on axis 1 of an [N, 1] index array): update position (b, q) lands on result element
    (b', v) exactly when b' = b and v is entry q of the index array read as a signed integer. -/
theorem resultIdx?_rows {B V N w : Nat}
    (d : ScatterDims ⟨2, ![B, V]⟩ ⟨2, ![N, 1]⟩ ⟨2, ![B, N]⟩)
    (hu : d.updateWindowDims = [0]) (hi : d.insertedWindowDims = [1])
    (hs : d.scatterDimsToOperandDims = [1]) (hv : d.indexVectorDim = 1)
    (idx : IVec ⟨2, ![N, 1]⟩ w) (j : (⟨2, ![B, N]⟩ : Shape).Idx) (i : (⟨2, ![B, V]⟩ : Shape).Idx) :
    d.resultIdx? j idx = some i ↔
      (i 0).val = (j 0).val ∧ ((i 1).val : Int) = (idx (ix2 (j 1) 0)).toInt := by
  obtain ⟨uw, iw, sd, iv, wf⟩ := d
  simp only at hu hi hs hv
  subst hu hi hs hv
  rw [resultIdx?_eq_some_iff]
  have hs0 : (⟨[0], [1], [1], 1, wf⟩ : ScatterDims ⟨2, ![B, V]⟩ ⟨2, ![N, 1]⟩ ⟨2, ![B, N]⟩).start j idx 0 = 0 := by
    unfold ScatterDims.start
    rw [dif_neg (show (0 : Fin 2) ∉ [1] by decide)]
  have hs1 : (⟨[0], [1], [1], 1, wf⟩ : ScatterDims ⟨2, ![B, V]⟩ ⟨2, ![N, 1]⟩ ⟨2, ![B, N]⟩).start j idx 1
      = (idx (ix2 (j 1) 0)).toInt := by
    unfold ScatterDims.start
    rw [dif_pos (show (1 : Fin 2) ∈ [1] from List.mem_singleton.mpr rfl)]
    congr 2
    funext b; refine Fin.ext ?_
    match b with
    | ⟨0, _⟩ => rfl
    | ⟨1, _⟩ => rfl
  have hw0 : (⟨[0], [1], [1], 1, wf⟩ : ScatterDims ⟨2, ![B, V]⟩ ⟨2, ![N, 1]⟩ ⟨2, ![B, N]⟩).window j 0 = (j 0).val := by
    have hp : (0 : Fin 2) ∈ (⟨[0], [1], [1], 1, wf⟩ : ScatterDims ⟨2, ![B, V]⟩ ⟨2, ![N, 1]⟩ ⟨2, ![B, N]⟩).sKept := by
      show (0 : Fin 2) ∈ (List.finRange 2).filter (· ∉ [(1 : Fin 2)])
      decide
    unfold ScatterDims.window
    rw [dif_pos hp]
    rfl
  have hw1 : (⟨[0], [1], [1], 1, wf⟩ : ScatterDims ⟨2, ![B, V]⟩ ⟨2, ![N, 1]⟩ ⟨2, ![B, N]⟩).window j 1 = 0 := by
    have hn : (1 : Fin 2) ∉ (⟨[0], [1], [1], 1, wf⟩ : ScatterDims ⟨2, ![B, V]⟩ ⟨2, ![N, 1]⟩ ⟨2, ![B, N]⟩).sKept := by
      show (1 : Fin 2) ∉ (List.finRange 2).filter (· ∉ [(1 : Fin 2)])
      decide
    unfold ScatterDims.window
    rw [dif_neg hn]
  constructor
  · intro h
    have h0 := h 0
    have h1 := h 1
    rw [hs0, hw0] at h0
    rw [hs1, hw1] at h1
    refine ⟨by omega, by omega⟩
  · rintro ⟨h0, h1⟩
    have k0 : ((i 0).val : Int) = (⟨[0], [1], [1], 1, wf⟩ : ScatterDims ⟨2, ![B, V]⟩ ⟨2, ![N, 1]⟩ ⟨2, ![B, N]⟩).start j idx 0
        + (⟨[0], [1], [1], 1, wf⟩ : ScatterDims ⟨2, ![B, V]⟩ ⟨2, ![N, 1]⟩ ⟨2, ![B, N]⟩).window j 0 := by
      rw [hs0, hw0]; omega
    have k1 : ((i 1).val : Int) = (⟨[0], [1], [1], 1, wf⟩ : ScatterDims ⟨2, ![B, V]⟩ ⟨2, ![N, 1]⟩ ⟨2, ![B, N]⟩).start j idx 1
        + (⟨[0], [1], [1], 1, wf⟩ : ScatterDims ⟨2, ![B, V]⟩ ⟨2, ![N, 1]⟩ ⟨2, ![B, N]⟩).window j 1 := by
      rw [hs1, hw1]; omega
    intro a
    match a with
    | ⟨0, _⟩ => exact k0
    | ⟨1, _⟩ => exact k1

/-- The amount a scatter along rows adds to result element i: the sum, over the update positions (b, q), of the
    updates whose row b is i's row and whose index entry q, read as a signed integer, is i's column. -/
def rowSum {B V N w : Nat} (idx : IVec ⟨2, ![N, 1]⟩ w) (upd : (⟨2, ![B, N]⟩ : Shape).Idx → EReal)
    (i : (⟨2, ![B, V]⟩ : Shape).Idx) : EReal :=
  ∑ b : Fin B, ∑ q : Fin N,
    if (i 0).val = b.val ∧ ((i 1).val : Int) = (idx (ix2 q 0)).toInt then upd (ix2 b q) else 0

/-- An accumulating scatter along rows, read at one result element: the operand's element plus rowSum. -/
theorem hostScatterAdd_rows_apply {B V N w : Nat}
    (d : ScatterDims ⟨2, ![B, V]⟩ ⟨2, ![N, 1]⟩ ⟨2, ![B, N]⟩)
    (hu : d.updateWindowDims = [0]) (hi : d.insertedWindowDims = [1])
    (hs : d.scatterDimsToOperandDims = [1]) (hv : d.indexVectorDim = 1)
    (x : (⟨2, ![B, V]⟩ : Shape).Idx → EReal) (idx : IVec ⟨2, ![N, 1]⟩ w)
    (upd : (⟨2, ![B, N]⟩ : Shape).Idx → EReal) (i : (⟨2, ![B, V]⟩ : Shape).Idx) :
    Ideal.hostScatterAdd d x idx upd i = x i + rowSum idx upd i := by
  show x i + _ = x i + _
  congr 1
  unfold rowSum
  rw [Finset.sum_filter, sum_idx2]
  refine Finset.sum_congr rfl fun b _ => Finset.sum_congr rfl fun q _ => ?_
  exact if_congr (resultIdx?_rows d hu hi hs hv idx (ix2 b q) i) rfl rfl

/-- The long axis of extent 3N as N groups of three: (p, k) goes to 3p + k. -/
def interleave3 {N N3 : Nat} (h3 : N3 = 3 * N) : Fin N × Fin 3 ≃ Fin N3 where
  toFun x := ⟨3 * x.1.val + x.2.val, by omega⟩
  invFun q := (⟨q.val / 3, by omega⟩, ⟨q.val % 3, by omega⟩)
  left_inv x := by
    obtain ⟨p, k⟩ := x
    refine Prod.ext (Fin.ext ?_) (Fin.ext ?_)
    · show (3 * p.val + k.val) / 3 = p.val
      omega
    · show (3 * p.val + k.val) % 3 = k.val
      omega
  right_inv q := by
    refine Fin.ext ?_
    show 3 * (q.val / 3) + q.val % 3 = q.val
    omega

/-- The row sum of three interleaved index and update arrays is the sum of the three row sums. -/
theorem rowSum_interleave3 {B V N N3 w : Nat} (h3 : N3 = 3 * N)
    (I : IVec ⟨2, ![N3, 1]⟩ w) (U : (⟨2, ![B, N3]⟩ : Shape).Idx → EReal)
    (Ik : Fin 3 → IVec ⟨2, ![N, 1]⟩ w) (Uk : Fin 3 → (⟨2, ![B, N]⟩ : Shape).Idx → EReal)
    (hI : ∀ (p : Fin N) (k : Fin 3), I (ix2 (⟨3 * p.val + k.val, by omega⟩ : Fin N3) 0) = Ik k (ix2 p 0))
    (hU : ∀ (b : Fin B) (p : Fin N) (k : Fin 3),
      U (ix2 b (⟨3 * p.val + k.val, by omega⟩ : Fin N3)) = Uk k (ix2 b p))
    (i : (⟨2, ![B, V]⟩ : Shape).Idx) :
    rowSum I U i = rowSum (Ik 0) (Uk 0) i + rowSum (Ik 1) (Uk 1) i + rowSum (Ik 2) (Uk 2) i := by
  unfold rowSum
  simp only [← Finset.sum_add_distrib]
  refine Finset.sum_congr rfl fun b _ => ?_
  rw [← Equiv.sum_comp (interleave3 h3), Fintype.sum_prod_type]
  refine Finset.sum_congr rfl fun p _ => ?_
  rw [Fin.sum_univ_three]
  have hI' : ∀ k : Fin 3, I (ix2 (interleave3 h3 (p, k)) 0) = Ik k (ix2 p 0) := fun k => hI p k
  have hU' : ∀ k : Fin 3, U (ix2 b (interleave3 h3 (p, k))) = Uk k (ix2 b p) := fun k => hU b p k
  rw [hI' 0, hI' 1, hI' 2, hU' 0, hU' 1, hU' 2]

/-- ONE accumulating scatter along rows of three interleaved index and update arrays is the three scatters one after
    the other: position 3p + k of the long axis holds entry p of the k-th index array and column p of the k-th update
    array. Extended-real addition is commutative and associative, so nothing is asked of the values. -/
theorem hostScatterAdd_interleave3 {B V N N3 w : Nat} (h3 : N3 = 3 * N)
    (d1 : ScatterDims ⟨2, ![B, V]⟩ ⟨2, ![N, 1]⟩ ⟨2, ![B, N]⟩)
    (d3 : ScatterDims ⟨2, ![B, V]⟩ ⟨2, ![N3, 1]⟩ ⟨2, ![B, N3]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![N3, 1]⟩ w) (U : (⟨2, ![B, N3]⟩ : Shape).Idx → EReal)
    (Ik : Fin 3 → IVec ⟨2, ![N, 1]⟩ w) (Uk : Fin 3 → (⟨2, ![B, N]⟩ : Shape).Idx → EReal)
    (hI : ∀ (p : Fin N) (k : Fin 3), I (ix2 (⟨3 * p.val + k.val, by omega⟩ : Fin N3) 0) = Ik k (ix2 p 0))
    (hU : ∀ (b : Fin B) (p : Fin N) (k : Fin 3),
      U (ix2 b (⟨3 * p.val + k.val, by omega⟩ : Fin N3)) = Uk k (ix2 b p))
    (z : (⟨2, ![B, V]⟩ : Shape).Idx → EReal) :
    Ideal.hostScatterAdd d3 z I U =
      Ideal.hostScatterAdd d1 (Ideal.hostScatterAdd d1 (Ideal.hostScatterAdd d1 z (Ik 0) (Uk 0)) (Ik 1) (Uk 1))
        (Ik 2) (Uk 2) := by
  funext i
  rw [hostScatterAdd_rows_apply d3 hd3u hd3i hd3s hd3v, hostScatterAdd_rows_apply d1 hd1u hd1i hd1s hd1v,
    hostScatterAdd_rows_apply d1 hd1u hd1i hd1s hd1v, hostScatterAdd_rows_apply d1 hd1u hd1i hd1s hd1v,
    rowSum_interleave3 h3 I U Ik Uk hI hU i]
  simp only [add_assoc]

/-- The same with the three index arrays and the three update arrays named one by one: positions 3p, 3p + 1 and
    3p + 2 of the long axis hold entry p (column p) of the first, the second and the third. -/
theorem hostScatterAdd_interleave3_each {B V N N3 w : Nat} (h3 : N3 = 3 * N)
    (d1 : ScatterDims ⟨2, ![B, V]⟩ ⟨2, ![N, 1]⟩ ⟨2, ![B, N]⟩)
    (d3 : ScatterDims ⟨2, ![B, V]⟩ ⟨2, ![N3, 1]⟩ ⟨2, ![B, N3]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![N3, 1]⟩ w) (U : (⟨2, ![B, N3]⟩ : Shape).Idx → EReal)
    (I0 I1 I2 : IVec ⟨2, ![N, 1]⟩ w) (U0 U1 U2 : (⟨2, ![B, N]⟩ : Shape).Idx → EReal)
    (hI0 : ∀ p : Fin N, I (ix2 (⟨3 * p.val, by omega⟩ : Fin N3) 0) = I0 (ix2 p 0))
    (hI1 : ∀ p : Fin N, I (ix2 (⟨3 * p.val + 1, by omega⟩ : Fin N3) 0) = I1 (ix2 p 0))
    (hI2 : ∀ p : Fin N, I (ix2 (⟨3 * p.val + 2, by omega⟩ : Fin N3) 0) = I2 (ix2 p 0))
    (hU0 : ∀ (b : Fin B) (p : Fin N), U (ix2 b (⟨3 * p.val, by omega⟩ : Fin N3)) = U0 (ix2 b p))
    (hU1 : ∀ (b : Fin B) (p : Fin N), U (ix2 b (⟨3 * p.val + 1, by omega⟩ : Fin N3)) = U1 (ix2 b p))
    (hU2 : ∀ (b : Fin B) (p : Fin N), U (ix2 b (⟨3 * p.val + 2, by omega⟩ : Fin N3)) = U2 (ix2 b p))
    (z : (⟨2, ![B, V]⟩ : Shape).Idx → EReal) :
    Ideal.hostScatterAdd d3 z I U =
      Ideal.hostScatterAdd d1 (Ideal.hostScatterAdd d1 (Ideal.hostScatterAdd d1 z I0 U0) I1 U1) I2 U2 :=
  hostScatterAdd_interleave3 h3 d1 d3 hd1u hd1i hd1s hd1v hd3u hd3i hd3s hd3v I U ![I0, I1, I2] ![U0, U1, U2]
    (fun p k => match k with
      | ⟨0, _⟩ => hI0 p
      | ⟨1, _⟩ => hI1 p
      | ⟨2, _⟩ => hI2 p)
    (fun b p k => match k with
      | ⟨0, _⟩ => hU0 b p
      | ⟨1, _⟩ => hU1 b p
      | ⟨2, _⟩ => hU2 b p) z

/-- The interleaving theorem at the extents 8, 6890, 1048576 and 3145728 = 3 · 1048576, the three index arrays and
    the three update arrays given as families over k. -/
theorem hostScatterAdd_interleave3_lit {w : Nat}
    (d1 : ScatterDims ⟨2, ![8, 6890]⟩ ⟨2, ![1048576, 1]⟩ ⟨2, ![8, 1048576]⟩)
    (d3 : ScatterDims ⟨2, ![8, 6890]⟩ ⟨2, ![3145728, 1]⟩ ⟨2, ![8, 3145728]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![3145728, 1]⟩ w) (U : (⟨2, ![8, 3145728]⟩ : Shape).Idx → EReal)
    (Ik : Fin 3 → IVec ⟨2, ![1048576, 1]⟩ w) (Uk : Fin 3 → (⟨2, ![8, 1048576]⟩ : Shape).Idx → EReal)
    (hI : ∀ (p : Fin 1048576) (k : Fin 3),
      I (ix2 (⟨3 * p.val + k.val, by omega⟩ : Fin 3145728) 0) = Ik k (ix2 p 0))
    (hU : ∀ (b : Fin 8) (p : Fin 1048576) (k : Fin 3),
      U (ix2 b (⟨3 * p.val + k.val, by omega⟩ : Fin 3145728)) = Uk k (ix2 b p))
    (z : (⟨2, ![8, 6890]⟩ : Shape).Idx → EReal) :
    Ideal.hostScatterAdd d3 z I U =
      Ideal.hostScatterAdd d1 (Ideal.hostScatterAdd d1 (Ideal.hostScatterAdd d1 z (Ik 0) (Uk 0)) (Ik 1) (Uk 1))
        (Ik 2) (Uk 2) :=
  hostScatterAdd_interleave3 (by norm_num) d1 d3 hd1u hd1i hd1s hd1v hd3u hd3i hd3s hd3v I U Ik Uk hI hU z

/-- The interleaving theorem at the extents 8, 6890, 1048576 and 3145728 = 3 · 1048576, the three index arrays and
    the three update arrays named one by one. -/
theorem hostScatterAdd_interleave3_each_lit {w : Nat}
    (d1 : ScatterDims ⟨2, ![8, 6890]⟩ ⟨2, ![1048576, 1]⟩ ⟨2, ![8, 1048576]⟩)
    (d3 : ScatterDims ⟨2, ![8, 6890]⟩ ⟨2, ![3145728, 1]⟩ ⟨2, ![8, 3145728]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![3145728, 1]⟩ w) (U : (⟨2, ![8, 3145728]⟩ : Shape).Idx → EReal)
    (I0 I1 I2 : IVec ⟨2, ![1048576, 1]⟩ w) (U0 U1 U2 : (⟨2, ![8, 1048576]⟩ : Shape).Idx → EReal)
    (hI0 : ∀ p : Fin 1048576, I (ix2 (⟨3 * p.val, by omega⟩ : Fin 3145728) 0) = I0 (ix2 p 0))
    (hI1 : ∀ p : Fin 1048576, I (ix2 (⟨3 * p.val + 1, by omega⟩ : Fin 3145728) 0) = I1 (ix2 p 0))
    (hI2 : ∀ p : Fin 1048576, I (ix2 (⟨3 * p.val + 2, by omega⟩ : Fin 3145728) 0) = I2 (ix2 p 0))
    (hU0 : ∀ (b : Fin 8) (p : Fin 1048576), U (ix2 b (⟨3 * p.val, by omega⟩ : Fin 3145728)) = U0 (ix2 b p))
    (hU1 : ∀ (b : Fin 8) (p : Fin 1048576), U (ix2 b (⟨3 * p.val + 1, by omega⟩ : Fin 3145728)) = U1 (ix2 b p))
    (hU2 : ∀ (b : Fin 8) (p : Fin 1048576), U (ix2 b (⟨3 * p.val + 2, by omega⟩ : Fin 3145728)) = U2 (ix2 b p))
    (z : (⟨2, ![8, 6890]⟩ : Shape).Idx → EReal) :
    Ideal.hostScatterAdd d3 z I U =
      Ideal.hostScatterAdd d1 (Ideal.hostScatterAdd d1 (Ideal.hostScatterAdd d1 z I0 U0) I1 U1) I2 U2 :=
  hostScatterAdd_interleave3_each (by norm_num) d1 d3 hd1u hd1i hd1s hd1v hd3u hd3i hd3s hd3v I U I0 I1 I2 U0 U1 U2
    hI0 hI1 hI2 hU0 hU1 hU2 z

end Cert.Lib.ScatterSplit
-- ==== Proof.EdgeRows.lean ====
/-
  ROW GATHER AND ACCUMULATING ROW SCATTER OVER AN EDGE LIST, READ AT ONE ELEMENT.

  An edge list of E edges over N nodes is an [E, 1] integer array; a table has one row per node and C columns.

  A row gather reads, for edge e and column c, the table at (row(e), c), where row(e) is entry e of the [E, 1]
  array read as a signed integer and clamped into [0, N - 1] (a negative entry reads row 0, an entry past the last
  row reads row N - 1).

  An accumulating row scatter adds update element (e, c') to result element (n, c) exactly when c' = c and entry e
  of the [E, 1] index array, read as a signed integer, equals n; nothing is clamped, and an update whose entry is
  negative or at least N lands nowhere. At the ideal instance the elements are extended reals, so result element
  (n, c) is the operand's element plus the sum over the edges e whose entry is n of update element (e, c).

  The statements: the gather read at (e, c) (gather_rows_apply), the landing condition of the scatter by coordinates
  (scatter_rows_lands) and the scatter read at (n, c) as a sum over the edges (hostScatterAdd_rows_apply).
-/
import Idealize.ShloMosaic.Lib.ValueIdx
import Idealize.ShloMosaic.PureOps.Ideal
import proofs.«179563_j74792560492685_2_alg».proof.Proof.LibScatterSplit

noncomputable section

open scoped BigOperators

namespace Cert.Lib.EdgeRows

open Idealize.ShloMosaic Idealize.ShloMosaic.ValueIdx

/-- A row gather (offset axis 1 of the result, operand axis 0 collapsed, the one start component going to operand
    axis 0, slices of one row) read at (e, c): the table at row entry e of the index array, read signed and clamped
    into [0, N - 1], and column c. -/
theorem gather_rows_apply {α : Type} {N C E w : Nat} (hN : 0 < N)
    (d : GatherDims ⟨2, ![N, C]⟩ ⟨2, ![E, 1]⟩ ⟨2, ![E, C]⟩)
    (ho : d.offsetDims = [1]) (hc : d.collapsedSliceDims = [0]) (hob : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  obtain ⟨od, cd, ob, sb, sm, iv, ss, wf⟩ := d
  simp only at ho hc hob hsb hm hv hs
  subst ho hc hob hsb hm hv hs
  unfold Host.gather
  congr 1
  funext a
  refine Fin.ext ?_
  match a with
  | ⟨0, _⟩ =>
    show (⟨[1], [0], [], [], [0], 1, ![1, C], wf⟩ : GatherDims ⟨2, ![N, C]⟩ ⟨2, ![E, 1]⟩ ⟨2, ![E, C]⟩).start (ix2 e c) idx 0
        + (⟨[1], [0], [], [], [0], 1, ![1, C], wf⟩ : GatherDims ⟨2, ![N, C]⟩ ⟨2, ![E, 1]⟩ ⟨2, ![E, C]⟩).batchCoord (ix2 e c) 0
        + (⟨[1], [0], [], [], [0], 1, ![1, C], wf⟩ : GatherDims ⟨2, ![N, C]⟩ ⟨2, ![E, 1]⟩ ⟨2, ![E, C]⟩).offCoord (ix2 e c) 0
        = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, C], wf⟩ : GatherDims ⟨2, ![N, C]⟩ ⟨2, ![E, 1]⟩ ⟨2, ![E, C]⟩).siIdx (ix2 e c)
        ⟨List.idxOf (0 : Fin 2) [(0 : Fin 2)], List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, C], wf⟩ : GatherDims ⟨2, ![N, C]⟩ ⟨2, ![E, 1]⟩ ⟨2, ![E, C]⟩).start (ix2 e c) idx 1
        + (⟨[1], [0], [], [], [0], 1, ![1, C], wf⟩ : GatherDims ⟨2, ![N, C]⟩ ⟨2, ![E, 1]⟩ ⟨2, ![E, C]⟩).batchCoord (ix2 e c) 1
        + (⟨[1], [0], [], [], [0], 1, ![1, C], wf⟩ : GatherDims ⟨2, ![N, C]⟩ ⟨2, ![E, 1]⟩ ⟨2, ![E, C]⟩).offCoord (ix2 e c) 1
        = c.val
    rw [GatherDims.batchCoord_eq_zero _ _ _ List.not_mem_nil]
    have hst : (⟨[1], [0], [], [], [0], 1, ![1, C], wf⟩ : GatherDims ⟨2, ![N, C]⟩ ⟨2, ![E, 1]⟩ ⟨2, ![E, C]⟩).start (ix2 e c) idx 1 = 0 := by
      unfold GatherDims.start
      rw [dif_neg (show (1 : Fin 2) ∉ [(0 : Fin 2)] by decide)]
    have hp : (1 : Fin 2) ∈ (⟨[1], [0], [], [], [0], 1, ![1, C], wf⟩ : GatherDims ⟨2, ![N, C]⟩ ⟨2, ![E, 1]⟩ ⟨2, ![E, C]⟩).sKept := by
      rw [GatherDims.mem_sKept]
      exact ⟨show (1 : Fin 2) ∉ [(0 : Fin 2)] by decide, List.not_mem_nil⟩
    have hoff : (⟨[1], [0], [], [], [0], 1, ![1, C], wf⟩ : GatherDims ⟨2, ![N, C]⟩ ⟨2, ![E, 1]⟩ ⟨2, ![E, C]⟩).offCoord (ix2 e c) 1 = c.val := by
      unfold GatherDims.offCoord
      rw [dif_pos hp]
      rfl
    rw [hst, hoff]
    omega

/-- An accumulating row scatter (update window axis 1, operand axis 0 inserted, the one start component going to
    operand axis 0, the index vector on axis 1 of an [E, 1] index array): update position (e, c') lands on result
    element (n, c) exactly when c' = c and n is entry e of the index array read as a signed integer. -/
theorem scatter_rows_lands {N C E w : Nat}
    (d : ScatterDims ⟨2, ![N, C]⟩ ⟨2, ![E, 1]⟩ ⟨2, ![E, C]⟩)
    (hu : d.updateWindowDims = [1]) (hi : d.insertedWindowDims = [0])
    (hs : d.scatterDimsToOperandDims = [0]) (hv : d.indexVectorDim = 1)
    (idx : IVec ⟨2, ![E, 1]⟩ w) (e : Fin E) (c' : Fin C) (n : Fin N) (c : Fin C) :
    d.resultIdx? (ix2 e c') idx = some (ix2 n c) ↔ c' = c ∧ ((n.val : Int) = (idx (ix2 e 0)).toInt) := by
  obtain ⟨uw, iw, sd, iv, wf⟩ := d
  simp only at hu hi hs hv
  subst hu hi hs hv
  rw [Cert.Lib.ScatterSplit.resultIdx?_eq_some_iff]
  have hs0 : (⟨[1], [0], [0], 1, wf⟩ : ScatterDims ⟨2, ![N, C]⟩ ⟨2, ![E, 1]⟩ ⟨2, ![E, C]⟩).start (ix2 e c') idx 0
      = (idx (ix2 e 0)).toInt := by
    unfold ScatterDims.start
    rw [dif_pos (show (0 : Fin 2) ∈ [(0 : Fin 2)] from List.mem_singleton.mpr rfl)]
    congr 2
    funext b; refine Fin.ext ?_
    match b with
    | ⟨0, _⟩ => rfl
    | ⟨1, _⟩ => rfl
  have hs1 : (⟨[1], [0], [0], 1, wf⟩ : ScatterDims ⟨2, ![N, C]⟩ ⟨2, ![E, 1]⟩ ⟨2, ![E, C]⟩).start (ix2 e c') idx 1 = 0 := by
    unfold ScatterDims.start
    rw [dif_neg (show (1 : Fin 2) ∉ [(0 : Fin 2)] by decide)]
  have hw0 : (⟨[1], [0], [0], 1, wf⟩ : ScatterDims ⟨2, ![N, C]⟩ ⟨2, ![E, 1]⟩ ⟨2, ![E, C]⟩).window (ix2 e c') 0 = 0 := by
    have hn : (0 : Fin 2) ∉ (⟨[1], [0], [0], 1, wf⟩ : ScatterDims ⟨2, ![N, C]⟩ ⟨2, ![E, 1]⟩ ⟨2, ![E, C]⟩).sKept := by
      show (0 : Fin 2) ∉ (List.finRange 2).filter (· ∉ [(0 : Fin 2)])
      decide
    unfold ScatterDims.window
    rw [dif_neg hn]
  have hw1 : (⟨[1], [0], [0], 1, wf⟩ : ScatterDims ⟨2, ![N, C]⟩ ⟨2, ![E, 1]⟩ ⟨2, ![E, C]⟩).window (ix2 e c') 1 = c'.val := by
    have hp : (1 : Fin 2) ∈ (⟨[1], [0], [0], 1, wf⟩ : ScatterDims ⟨2, ![N, C]⟩ ⟨2, ![E, 1]⟩ ⟨2, ![E, C]⟩).sKept := by
      show (1 : Fin 2) ∈ (List.finRange 2).filter (· ∉ [(0 : Fin 2)])
      decide
    unfold ScatterDims.window
    rw [dif_pos hp]
    rfl
  constructor
  · intro h
    have h0 := h 0
    have h1 := h 1
    rw [hs0, hw0] at h0
    rw [hs1, hw1] at h1
    have h0' : (n.val : Int) = (idx (ix2 e 0)).toInt + ((0 : Nat) : Int) := h0
    have h1' : (c.val : Int) = 0 + (c'.val : Int) := h1
    refine ⟨Fin.ext (by omega), by omega⟩
  · rintro ⟨h0, h1⟩
    subst h0
    have k0 : ((ix2 n c' (0 : Fin 2)).val : Int)
        = (⟨[1], [0], [0], 1, wf⟩ : ScatterDims ⟨2, ![N, C]⟩ ⟨2, ![E, 1]⟩ ⟨2, ![E, C]⟩).start (ix2 e c') idx 0
        + (⟨[1], [0], [0], 1, wf⟩ : ScatterDims ⟨2, ![N, C]⟩ ⟨2, ![E, 1]⟩ ⟨2, ![E, C]⟩).window (ix2 e c') 0 := by
      rw [hs0, hw0]
      show (n.val : Int) = _
      omega
    have k1 : ((ix2 n c' (1 : Fin 2)).val : Int)
        = (⟨[1], [0], [0], 1, wf⟩ : ScatterDims ⟨2, ![N, C]⟩ ⟨2, ![E, 1]⟩ ⟨2, ![E, C]⟩).start (ix2 e c') idx 1
        + (⟨[1], [0], [0], 1, wf⟩ : ScatterDims ⟨2, ![N, C]⟩ ⟨2, ![E, 1]⟩ ⟨2, ![E, C]⟩).window (ix2 e c') 1 := by
      rw [hs1, hw1]
      show (c'.val : Int) = _
      omega
    intro a
    match a with
    | ⟨0, _⟩ => exact k0
    | ⟨1, _⟩ => exact k1

/-- An accumulating row scatter read at result element (n, c): the operand's element plus the sum, over the edges e
    whose index entry read as a signed integer is n, of update element (e, c). -/
theorem hostScatterAdd_rows_apply {N C E w : Nat}
    (d : ScatterDims ⟨2, ![N, C]⟩ ⟨2, ![E, 1]⟩ ⟨2, ![E, C]⟩)
    (hu : d.updateWindowDims = [1]) (hi : d.insertedWindowDims = [0])
    (hs : d.scatterDimsToOperandDims = [0]) (hv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c) =
      x (ix2 n c) + ∑ e : Fin E, if ((n.val : Int) = (idx (ix2 e 0)).toInt) then upd (ix2 e c) else 0 := by
  show x (ix2 n c) + _ = x (ix2 n c) + _
  congr 1
  rw [Finset.sum_filter, sum_idx2]
  refine Finset.sum_congr rfl fun e _ => ?_
  rw [Finset.sum_eq_single c]
  · refine if_congr ?_ rfl rfl
    rw [scatter_rows_lands d hu hi hs hv idx e c n c]
    exact ⟨fun h => h.2, fun h => ⟨rfl, h⟩⟩
  · intro c' _ hne
    refine if_neg ?_
    rw [scatter_rows_lands d hu hi hs hv idx e c' n c]
    exact fun h => hne h.1
  · intro h
    exact absurd (Finset.mem_univ c) h

end Cert.Lib.EdgeRows

end
-- ==== Proof.Bridge.lean ====
/-
  THE BRIDGE BETWEEN THE TWO ARRANGEMENTS OF A NEIGHBOURHOOD-AVERAGING LAYER, entry by entry, over extended reals.

  One layer adds to a node's own features times a weight matrix the average of its in-neighbours' features times
  another matrix, plus a bias. The average is the neighbours' sum times a factor d (the reciprocal of the in-degree
  clamped at one), and d satisfies 0 ≤ d < +infinity.

  Scaling. A factor d with 0 ≤ d < +infinity distributes over every extended-real sum, so scaling each summed
  neighbour feature by d before the product with the weight matrix gives the same entry as scaling the product
  afterwards: sum_k (a_k · d) · w_k = (sum_k a_k · w_k) · d. With the bias read off a one-row matrix instead of a
  vector this identifies the two spellings of a hidden layer (hidden_scale).

  The neighbours' sum. An accumulating row scatter into a zero table of the rows gathered at the edges' sources adds,
  to entry (n, c), the source row's entry c of every edge whose destination is n: the sum edgeSum
  (scatterAdd_gather_rows for any sizes, agg_apply at 100000 nodes and 1600000 edges). The
  source is read signed and clamped into the table, the destination is read signed and an edge whose destination is
  no node contributes nothing.

  Interchange. When the features and the weight matrix are finite, all the arithmetic is real arithmetic and the sum
  over the contraction position k may be exchanged with the sum over the edges: multiplying the summed neighbours by
  the matrix equals summing the neighbours already multiplied by it. With the scaling law this identifies the last
  layer computed "sum, scale, multiply" with the last layer computed "multiply, sum, scale" (final_interchange).

  Finiteness. A hidden layer's entry and a neighbours' sum are finite when their data are (isFin_hiddenE,
  isFin_edgeSum), and so is a projection (isFin_projK).
-/
import proofs.«179563_j74792560492685_2_alg».proof.Proof.Spec
import proofs.«179563_j74792560492685_2_alg».proof.Proof.ERealLaws
import proofs.«179563_j74792560492685_2_alg».proof.Proof.EdgeRows
import Idealize.ShloMosaic.Lib.ValueIdx

noncomputable section

open scoped BigOperators

namespace Cert.Sage

open Idealize.ShloMosaic Idealize.ShloMosaic.ValueIdx Cert.Lib.ERealLaws Cert.Lib.EdgeRows

/-- A hidden layer with the summed neighbours scaled by d before the product with Wn equals the layer with the
    product scaled afterwards, when 0 ≤ d < +infinity and the one-row bias matrix holds the bias vector. -/
theorem hidden_scale (h agg : A128) (d : Col) (Ws Wn : W128) (b : Vec128) (brow : Row128)
    (hb : ∀ j : Fin 128, brow (ix2 0 j) = b (ix1 j)) (n : Fin 100000) (j : Fin 128)
    (hd0 : 0 ≤ d (ix2 n 0)) (hdt : d (ix2 n 0) ≠ ⊤) :
    refHiddenE h agg d Ws Wn b n j = hiddenE h agg d Ws Wn brow n j := by
  have key : ∑ k : Fin 128, (agg (ix2 n k) * d (ix2 n 0)) * Wn (ix2 k j)
      = (∑ k : Fin 128, agg (ix2 n k) * Wn (ix2 k j)) * d (ix2 n 0) :=
    sum_mul_scale (fun k => agg (ix2 n k)) (fun k => Wn (ix2 k j)) (d (ix2 n 0)) hd0 hdt
  unfold refHiddenE hiddenE
  rw [key, hb j]

/-- The neighbours' sum at node n, column c: over the edges e whose destination entry, read signed, is n, the sum
    of the table's entry at the source row (the source entry read signed and clamped into the table) and column c. -/
def edgeSum {C : Nat} (x : (⟨2, ![100000, C]⟩ : Shape).Idx → EReal) (sidx didx : IVec ⟨2, ![1600000, 1]⟩ 32)
    (n : Fin 100000) (c : Fin C) : EReal :=
  0 + ∑ e : Fin 1600000, if ((n.val : Int) = (didx (ix2 e 0)).toInt)
    then x (ix2 ⟨min (sidx (ix2 e 0)).toInt.toNat (100000 - 1), by omega⟩ c) else 0

/-- An accumulating row scatter, into a zero table, of the rows gathered at the edges' sources, for any numbers of
    nodes, columns and edges: entry (n, c) is the sum, over the edges whose destination entry read signed is n, of the
    table's entry at the source row (read signed, clamped) and column c. -/
theorem scatterAdd_gather_rows {N C E w : Nat} (hN : 0 < N)
    (dS : ScatterDims ⟨2, ![N, C]⟩ ⟨2, ![E, 1]⟩ ⟨2, ![E, C]⟩)
    (hu : dS.updateWindowDims = [1]) (hi : dS.insertedWindowDims = [0])
    (hs : dS.scatterDimsToOperandDims = [0]) (hv : dS.indexVectorDim = 1)
    (dG : GatherDims ⟨2, ![N, C]⟩ ⟨2, ![E, 1]⟩ ⟨2, ![E, C]⟩)
    (gho : dG.offsetDims = [1]) (ghc : dG.collapsedSliceDims = [0]) (ghob : dG.operandBatchingDims = [])
    (ghsb : dG.startIndicesBatchingDims = []) (ghm : dG.startIndexMap = [0]) (ghv : dG.indexVectorDim = 1)
    (ghs : dG.sliceSizes = ![1, C])
    (z x : (⟨2, ![N, C]⟩ : Shape).Idx → EReal) (hz : ∀ i, z i = 0)
    (sidx didx : IVec ⟨2, ![E, 1]⟩ w) (n : Fin N) (c : Fin C) :
    Ideal.hostScatterAdd dS z didx (Host.gather dG x sidx) (ix2 n c)
      = 0 + ∑ e : Fin E, if ((n.val : Int) = (didx (ix2 e 0)).toInt)
          then x (ix2 ⟨min (sidx (ix2 e 0)).toInt.toNat (N - 1), by omega⟩ c) else 0 := by
  rw [hostScatterAdd_rows_apply dS hu hi hs hv, hz]
  congr 1
  refine Finset.sum_congr rfl fun e _ => ?_
  rw [gather_rows_apply hN dG gho ghc ghob ghsb ghm ghv ghs]

/-- An accumulating row scatter, into a zero table, of the rows gathered at the edges' sources is the neighbours'
    sum. -/
theorem agg_apply {C : Nat}
    (dS : ScatterDims ⟨2, ![100000, C]⟩ ⟨2, ![1600000, 1]⟩ ⟨2, ![1600000, C]⟩)
    (hu : dS.updateWindowDims = [1]) (hi : dS.insertedWindowDims = [0])
    (hs : dS.scatterDimsToOperandDims = [0]) (hv : dS.indexVectorDim = 1)
    (dG : GatherDims ⟨2, ![100000, C]⟩ ⟨2, ![1600000, 1]⟩ ⟨2, ![1600000, C]⟩)
    (gho : dG.offsetDims = [1]) (ghc : dG.collapsedSliceDims = [0]) (ghob : dG.operandBatchingDims = [])
    (ghsb : dG.startIndicesBatchingDims = []) (ghm : dG.startIndexMap = [0]) (ghv : dG.indexVectorDim = 1)
    (ghs : dG.sliceSizes = ![1, C])
    (z x : (⟨2, ![100000, C]⟩ : Shape).Idx → EReal) (hz : ∀ i, z i = 0)
    (sidx didx : IVec ⟨2, ![1600000, 1]⟩ 32) (n : Fin 100000) (c : Fin C) :
    Ideal.hostScatterAdd dS z didx (Host.gather dG x sidx) (ix2 n c) = edgeSum x sidx didx n c := by
  unfold edgeSum
  exact scatterAdd_gather_rows (by norm_num) dS hu hi hs hv dG gho ghc ghob ghsb ghm ghv ghs z x hz sidx didx n c

/-- The last layer computed "sum the neighbours, scale by d, multiply by Wn" equals the last layer computed
    "multiply the neighbours by Wn, sum, scale by d", when 0 ≤ d < +infinity and the features and Wn are finite. -/
theorem final_interchange (h : A128) (sidx didx : IVec ⟨2, ![1600000, 1]⟩ 32) (d : Col) (Ws Wn : W64) (b : Vec64)
    (brow : Row64) (hb : ∀ j : Fin 64, brow (ix2 0 j) = b (ix1 j)) (n : Fin 100000) (j : Fin 64)
    (hd0 : 0 ≤ d (ix2 n 0)) (hdt : d (ix2 n 0) ≠ ⊤) (hh : ∀ i, IsFin (h i)) (hW : ∀ i, IsFin (Wn i))
    (agg : A128) (hagg : ∀ (n : Fin 100000) (k : Fin 128), agg (ix2 n k) = edgeSum h sidx didx n k)
    (g : A64) (hg : ∀ (n : Fin 100000) (j : Fin 64), g (ix2 n j) = edgeSum (projK h Wn) sidx didx n j) :
    refFinalE h agg d Ws Wn b n j = finalE h g d Ws brow n j := by
  have key1 : ∑ k : Fin 128, (agg (ix2 n k) * d (ix2 n 0)) * Wn (ix2 k j)
      = (∑ k : Fin 128, agg (ix2 n k) * Wn (ix2 k j)) * d (ix2 n 0) :=
    sum_mul_scale (fun k => agg (ix2 n k)) (fun k => Wn (ix2 k j)) (d (ix2 n 0)) hd0 hdt
  have key2 : ∑ k : Fin 128, agg (ix2 n k) * Wn (ix2 k j) = g (ix2 n j) := by
    rw [hg n j]
    have hk : ∀ k : Fin 128, agg (ix2 n k) * Wn (ix2 k j) = edgeSum h sidx didx n k * Wn (ix2 k j) :=
      fun k => by rw [hagg n k]
    rw [Finset.sum_congr rfl fun k _ => hk k]
    exact edge_sum_mul (fun e : Fin 1600000 => ((n.val : Int) = (didx (ix2 e 0)).toInt))
      (fun e k => h (ix2 ⟨min (sidx (ix2 e 0)).toInt.toNat (100000 - 1), by omega⟩ k))
      (fun k => Wn (ix2 k j)) (fun e k => hh _) (fun k => hW _)
  unfold refFinalE finalE
  rw [key1, key2, hb j]

/-- A hidden layer's entry is finite when the features, the summed neighbours, the factor d, the two weight matrices
    and the bias are finite at every index. -/
theorem isFin_hiddenE (h agg : A128) (d : Col) (Ws Wn : W128) (brow : Row128)
    (hh : ∀ i, IsFin (h i)) (hagg : ∀ i, IsFin (agg i)) (hd : ∀ i, IsFin (d i))
    (hWs : ∀ i, IsFin (Ws i)) (hWn : ∀ i, IsFin (Wn i)) (hbrow : ∀ i, IsFin (brow i))
    (n : Fin 100000) (j : Fin 128) : IsFin (hiddenE h agg d Ws Wn brow n j) := by
  unfold hiddenE
  exact IsFin.max
    (IsFin.add
      (IsFin.add (isFin_sum _ _ fun k _ => (hh _).mul (hWs _))
        ((isFin_sum _ _ fun k _ => (hagg _).mul (hWn _)).mul (hd _)))
      (hbrow _))
    isFin_zero

/-- The neighbours' sum of a table that is finite at every index is finite. -/
theorem isFin_edgeSum {C : Nat} (x : (⟨2, ![100000, C]⟩ : Shape).Idx → EReal) (hx : ∀ i, IsFin (x i))
    (sidx didx : IVec ⟨2, ![1600000, 1]⟩ 32) (n : Fin 100000) (c : Fin C) : IsFin (edgeSum x sidx didx n c) := by
  unfold edgeSum
  exact isFin_zero.add (isFin_sum _ _ fun e _ => isFin_ite_zero _ (hx _))

/-- The projection of finite features by a finite matrix is finite at every index. -/
theorem isFin_projK (h : A128) (W : W64) (hh : ∀ i, IsFin (h i)) (hW : ∀ i, IsFin (W i))
    (i : (⟨2, ![100000, 64]⟩ : Shape).Idx) : IsFin (projK h W i) := by
  unfold projK projE
  exact isFin_sum _ _ fun k _ => (hh _).mul (hW _)

end Cert.Sage

end
-- ==== Proof.LayerEq.lean ====
/-
The two hidden layers written "scale last" are the reference's own values.

The reference scales the summed neighbour features by the degree column d before multiplying by
the neighbour weights; the other arrangement multiplies first and scales the product row by row.
Because every entry of d is a nonnegative number that is not +∞, scaling commutes with the sum
over the contraction position, so the two arrangements agree entry by entry.  Together with the
entrywise reading of the reference's layers this identifies, as whole arrays, the first hidden
layer (scale last) with the reference's first clipped layer, and the second hidden layer of that
output with the reference's second clipped layer.

Two bookkeeping facts are needed.  A bias vector presented as a one-row matrix has, at (0, j), the
vector's entry j.  And the second layer's neighbour sum in the reference is the same gather along
the edges followed by the same accumulating scatter as the first layer's, applied to the first
layer's output: the index arrays and the zero table are built by the same operations from the same
inputs, so the two are equal without evaluating the gather or the scatter.  The same holds for the last
layer's neighbour sum, which is that operation applied to the second layer's output; it is
recorded here as well, for use where the last layer is treated.
-/
import proofs.«179563_j74792560492685_2_alg».proof.Proof.HostTerms
import proofs.«179563_j74792560492685_2_alg».proof.Proof.RefLayers
import proofs.«179563_j74792560492685_2_alg».proof.Proof.DegCol
import proofs.«179563_j74792560492685_2_alg».proof.Proof.Bridge
import Idealize.ShloMosaic.Lib.ValueLayout

noncomputable section

namespace Cert.Sage.Ref

open Cert.ReferenceIdeal Cert.ReferenceIdeal.Gen Cert.ReferenceIdeal.Read
open Idealize.ShloMosaic Idealize.ShloMosaic.ValueIdx
open Cert.Lib.ERealLaws Cert.Sage

/-- A 128-vector presented as a one-row matrix has, at (0, j), the vector's entry j. -/
theorem row128_apply (b : (⟨S128, .f32⟩ : BufTy).Contents (Elt Ideal)) (j : Fin 128) :
    Cert.KernelIdeal.Fold.row128 b (ix2 (0 : Fin 1) j) = b (ix1 j) := by
  unfold Cert.KernelIdeal.Fold.row128
  exact shapeCast_a_1a_apply b _ 0 j

/-- A 64-vector presented as a one-row matrix has, at (0, j), the vector's entry j. -/
theorem row64_apply (b : (⟨S64, .f32⟩ : BufTy).Contents (Elt Ideal)) (j : Fin 64) :
    Cert.KernelIdeal.Fold.row64 b (ix2 (0 : Fin 1) j) = b (ix1 j) := by
  unfold Cert.KernelIdeal.Fold.row64
  exact shapeCast_a_1a_apply b _ 0 j

/-- The zero table the second layer's scatter accumulates into is the first layer's. -/
theorem v35_eq : val_main_v35 (F := Ideal) = val_main_v16 (F := Ideal) := rfl

/-- The destination index array of the second layer's scatter is the first layer's. -/
theorem v36_eq (x2 : (⟨S1600000, .i32⟩ : BufTy).Contents (Elt Ideal)) : val_main_v36 (F := Ideal) x2 = val_main_v17 (F := Ideal) x2 := rfl

/-- The source index array of the second layer's gather is the first layer's. -/
theorem v33_eq (x1 : (⟨S1600000, .i32⟩ : BufTy).Contents (Elt Ideal)) : val_main_v33 (F := Ideal) x1 = val_main_v14 (F := Ideal) x1 := rfl

/-- The second layer's neighbour sum is the first layer's neighbour-sum operation applied to the first layer's output. -/
theorem agg2_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) :
    val_main_v37 (F := Ideal) x0 x1 x2 x3 x4 x5
      = val_main_v18 (F := Ideal) (val_main_v27 (F := Ideal) x0 x1 x2 x3 x4 x5) x1 x2 := by
  unfold val_main_v37 val_main_v18 val_main_v34 val_main_v15
  rw [v35_eq, v36_eq, v33_eq]

/-- The first hidden layer, scale last, is the reference's first clipped layer, as whole arrays. -/
theorem h1_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) :
    Cert.KernelIdeal.Fold.H1 x0 x1 x2 x3 x4 x5 = val_main_v27 (F := Ideal) x0 x1 x2 x3 x4 x5 := by
  funext i
  obtain ⟨n, j, rfl⟩ : ∃ (n : Fin 100000) (j : Fin 128), i = ix2 n j :=
    ⟨(i 0 : Fin 100000), (i 1 : Fin 128), eq_ix2 i⟩
  rw [R1]
  unfold Cert.KernelIdeal.Fold.H1 Cert.KernelIdeal.Fold.aggOf128 Cert.KernelIdeal.Fold.dOf
  rw [hiddenK_ix2]
  exact (hidden_scale x0 _ _ x3 x4 x5 _ (row128_apply x5) n j (d_nonneg x2 n) (d_ne_top x2 n)).symm

/-- The second hidden layer, scale last, of the reference's first clipped layer is the reference's second clipped layer, as whole arrays. -/
theorem h2_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) :
    Cert.KernelIdeal.Fold.H2 (val_main_v27 (F := Ideal) x0 x1 x2 x3 x4 x5) x1 x2 x6 x7 x8
      = val_main_v46 (F := Ideal) x0 x1 x2 x3 x4 x5 x6 x7 x8 := by
  funext i
  obtain ⟨n, j, rfl⟩ : ∃ (n : Fin 100000) (j : Fin 128), i = ix2 n j :=
    ⟨(i 0 : Fin 100000), (i 1 : Fin 128), eq_ix2 i⟩
  rw [R2, agg2_eq]
  unfold Cert.KernelIdeal.Fold.H2 Cert.KernelIdeal.Fold.aggOf128 Cert.KernelIdeal.Fold.dOf
  rw [hiddenK_ix2]
  exact (hidden_scale (val_main_v27 (F := Ideal) x0 x1 x2 x3 x4 x5) _ _ x6 x7 x8 _ (row128_apply x8) n j
    (d_nonneg x2 n) (d_ne_top x2 n)).symm

/-- The zero table the last layer's scatter accumulates into is the first layer's. -/
theorem v54_eq : val_main_v54 (F := Ideal) = val_main_v16 (F := Ideal) := rfl

/-- The destination index array of the last layer's scatter is the first layer's. -/
theorem v55_eq (x2 : (⟨S1600000, .i32⟩ : BufTy).Contents (Elt Ideal)) : val_main_v55 (F := Ideal) x2 = val_main_v17 (F := Ideal) x2 := rfl

/-- The source index array of the last layer's gather is the first layer's. -/
theorem v52_eq (x1 : (⟨S1600000, .i32⟩ : BufTy).Contents (Elt Ideal)) : val_main_v52 (F := Ideal) x1 = val_main_v14 (F := Ideal) x1 := rfl

/-- The last layer's neighbour sum is the first layer's neighbour-sum operation applied to the second layer's output. -/
theorem agg3_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) :
    val_main_v56 (F := Ideal) x0 x1 x2 x3 x4 x5 x6 x7 x8
      = val_main_v18 (F := Ideal) (val_main_v46 (F := Ideal) x0 x1 x2 x3 x4 x5 x6 x7 x8) x1 x2 := by
  unfold val_main_v56 val_main_v18 val_main_v53 val_main_v15
  rw [v54_eq, v55_eq, v52_eq]

end Cert.Sage.Ref

end
-- ==== Proof.LastLayer.lean ====
/-
  FINITENESS THROUGH THE LAYERS, AND THE LAST LAYER'S TWO ARRANGEMENTS AGREE.

  The neighbours' sum. Both programs form, before a layer, the sum over the edges arriving at a node of the source
  nodes' feature rows: a row gather along the edges followed by an accumulating row scatter into a table of zeros.
  Read at entry (n, c) it is the sum, over the edges whose destination is n, of the source row's entry c — for the
  128-wide features (aggOf128_apply) and for the 64-wide projected features (aggOf64_apply); at exact values the
  accumulating scatter is the operand plus the exact sum of the updates landing on each entry (hostScatterAdd_eq_ideal).

  Finiteness. The neighbours' sum of a finite table is a finite sum of finite numbers (isFin_aggOf128); a bias
  vector read as a one-row matrix has the vector's entries (isFin_row128, isFin_row64); the reciprocal clamped
  in-degree is finite; so a hidden layer of finite features, finite weights and a finite bias is finite at every
  entry (isFin_H1, isFin_H2), being sums and products of finite numbers clipped at zero.

  The last layer. One program sums the second hidden layer's rows over the edges, scales the sum by the reciprocal
  clamped in-degree d and multiplies by the weight matrix; the other multiplies the rows by the weight matrix first,
  sums the products over the edges and scales by d. Since 0 ≤ d < +infinity, d moves across the product with the
  matrix; since the hidden layer and the matrix are finite, the sum over the contraction position exchanges with the
  sum over the edges. Hence the two outputs are equal at every entry (out_eq).
-/
import proofs.«179563_j74792560492685_2_alg».proof.Proof.HostTerms
import proofs.«179563_j74792560492685_2_alg».proof.Proof.Bridge
import proofs.«179563_j74792560492685_2_alg».proof.Proof.RefLayers
import proofs.«179563_j74792560492685_2_alg».proof.Proof.DegCol
import proofs.«179563_j74792560492685_2_alg».proof.Proof.LayerEq
import proofs.«179563_j74792560492685_2_alg».proof.Proof.ERealLaws
import Idealize.ShloMosaic.Lib.ValueLayout

set_option maxRecDepth 16384

noncomputable section

open scoped BigOperators

namespace Cert.Sage

open Idealize.ShloMosaic Idealize.ShloMosaic.ValueIdx Cert.Lib.ERealLaws Cert.Lib.EdgeRows
open Cert.KernelIdeal.Fold Cert.Sage.Ref Cert.ReferenceIdeal.Read

/-- At the ideal instance the host's accumulating scatter is the exact sum: each operand element plus the sum of the
    updates landing on it. -/
theorem hostScatterAdd_eq_ideal {s si u : Shape} {w : Nat} (d : ScatterDims s si u) (x : FVec Ideal s .f32)
    (idx : IVec si w) (upd : FVec Ideal u .f32) :
    Host.scatterAdd d x idx upd = Ideal.hostScatterAdd d x idx upd := rfl

/-- The 128-wide table of zeros the neighbours' sum starts from is 0 at every index. -/
theorem zeros128_apply (i : Cert.ReferenceIdeal.S100000x128.Idx) : val_main_v16 (F := Ideal) i = 0 := by
  rw [val_main_v16_apply, val_main_cst_4_apply]
  exact zero_const

/-- The neighbours' sum of 128-wide features at (n, k): over the edges whose destination is n, the sum of the
    source row's entry k. -/
theorem aggOf128_apply (h : A128) (x1 x2 : (⟨Cert.ReferenceIdeal.S1600000, .i32⟩ : BufTy).Contents (Elt Ideal)) (n : Fin 100000) (k : Fin 128) :
    aggOf128 h x1 x2 (ix2 n k) = edgeSum h (srcIdx x1) (dstIdx x2) n k := by
  unfold aggOf128 val_main_v18 val_main_v15 srcIdx dstIdx
  rw [hostScatterAdd_eq_ideal]
  exact agg_apply Cert.ReferenceIdeal.scatter_S100000x128_S1600000x1_S1600000x128_1_0_0_1 rfl rfl rfl rfl
    Cert.ReferenceIdeal.gather_S100000x128_S1600000x1_S1600000x128_1_0_n_n_0_1_1128 rfl rfl rfl rfl rfl rfl rfl
    (val_main_v16 (F := Ideal)) h zeros128_apply (val_main_v14 (F := Ideal) x1) (val_main_v17 (F := Ideal) x2) n k

/-- The neighbours' sum of 64-wide features at (n, j): over the edges whose destination is n, the sum of the source
    row's entry j. -/
theorem aggOf64_apply (p : A64) (x1 x2 : (⟨Cert.ReferenceIdeal.S1600000, .i32⟩ : BufTy).Contents (Elt Ideal)) (n : Fin 100000) (j : Fin 64) :
    aggOf64 p x1 x2 (ix2 n j) = edgeSum p (srcIdx x1) (dstIdx x2) n j := by
  unfold aggOf64
  rw [hostScatterAdd_eq_ideal]
  exact agg_apply Cert.KernelIdeal.scatter_S100000x64_S1600000x1_S1600000x64_1_0_0_1 rfl rfl rfl rfl
    Cert.KernelIdeal.gather_S100000x64_S1600000x1_S1600000x64_1_0_n_n_0_1_164 rfl rfl rfl rfl rfl rfl rfl
    _ p (fun i => zero_const) (srcIdx x1) (dstIdx x2) n j

/-- The neighbours' sum of features that are finite at every index is finite at every index. -/
theorem isFin_aggOf128 (h : A128) (hh : ∀ i, IsFin (h i)) (x1 x2 : (⟨Cert.ReferenceIdeal.S1600000, .i32⟩ : BufTy).Contents (Elt Ideal))
    (i : (⟨2, ![100000, 128]⟩ : Shape).Idx) : IsFin (aggOf128 h x1 x2 i) := by
  obtain ⟨n, k, rfl⟩ : ∃ (n : Fin 100000) (k : Fin 128), i = ix2 n k := ⟨i 0, i 1, eq_ix2 i⟩
  rw [aggOf128_apply]
  exact isFin_edgeSum h hh _ _ n k

/-- A finite 128-vector read as a one-row matrix is finite at every index. -/
theorem isFin_row128 (b : Vec128) (hb : ∀ i, IsFin (b i)) (i : (⟨2, ![1, 128]⟩ : Shape).Idx) :
    IsFin (row128 b i) := by
  obtain ⟨u, c, rfl⟩ : ∃ (u : Fin 1) (c : Fin 128), i = ix2 u c := ⟨i 0, i 1, eq_ix2 i⟩
  have e : row128 b (ix2 u c) = b (ix1 c) := shapeCast_a_1a_apply b _ u c
  rw [e]
  exact hb _

/-- A finite 64-vector read as a one-row matrix is finite at every index. -/
theorem isFin_row64 (b : Vec64) (hb : ∀ i, IsFin (b i)) (i : (⟨2, ![1, 64]⟩ : Shape).Idx) :
    IsFin (row64 b i) := by
  obtain ⟨u, c, rfl⟩ : ∃ (u : Fin 1) (c : Fin 64), i = ix2 u c := ⟨i 0, i 1, eq_ix2 i⟩
  have e : row64 b (ix2 u c) = b (ix1 c) := shapeCast_a_1a_apply b _ u c
  rw [e]
  exact hb _

/-- The first hidden layer of finite features, finite weight matrices and a finite bias is finite at every index. -/
theorem isFin_H1 (x0 : A128) (x1 x2 : (⟨Cert.ReferenceIdeal.S1600000, .i32⟩ : BufTy).Contents (Elt Ideal)) (x3 x4 : W128) (x5 : Vec128)
    (h0 : ∀ i, IsFin (x0 i)) (h3 : ∀ i, IsFin (x3 i)) (h4 : ∀ i, IsFin (x4 i)) (h5 : ∀ i, IsFin (x5 i))
    (i : (⟨2, ![100000, 128]⟩ : Shape).Idx) : IsFin (H1 x0 x1 x2 x3 x4 x5 i) := by
  unfold H1 hiddenK
  exact isFin_hiddenE x0 (aggOf128 x0 x1 x2) (dOf x2) x3 x4 (row128 x5) h0 (isFin_aggOf128 x0 h0 x1 x2)
    (fun i => d_isFin x2 i) h3 h4 (isFin_row128 x5 h5) (i 0) (i 1)

/-- The second hidden layer of a finite first layer, finite weight matrices and a finite bias is finite at every
    index. -/
theorem isFin_H2 (h1 : A128) (x1 x2 : (⟨Cert.ReferenceIdeal.S1600000, .i32⟩ : BufTy).Contents (Elt Ideal)) (x6 x7 : W128) (x8 : Vec128)
    (hh1 : ∀ i, IsFin (h1 i)) (h6 : ∀ i, IsFin (x6 i)) (h7 : ∀ i, IsFin (x7 i)) (h8 : ∀ i, IsFin (x8 i))
    (i : (⟨2, ![100000, 128]⟩ : Shape).Idx) : IsFin (H2 h1 x1 x2 x6 x7 x8 i) := by
  unfold H2 hiddenK
  exact isFin_hiddenE h1 (aggOf128 h1 x1 x2) (dOf x2) x6 x7 (row128 x8) hh1 (isFin_aggOf128 h1 hh1 x1 x2)
    (fun i => d_isFin x2 i) h6 h7 (isFin_row128 x8 h8) (i 0) (i 1)

/-- The last layer with the neighbours projected before they are summed equals the last layer that sums the
    neighbours, scales and then projects, when the second hidden layer h2 and the projecting matrix are finite. -/
theorem out_eq (x0 : (⟨Cert.ReferenceIdeal.S100000x128, .f32⟩ : BufTy).Contents (Elt Ideal)) (x1 x2 : (⟨Cert.ReferenceIdeal.S1600000, .i32⟩ : BufTy).Contents (Elt Ideal))
    (x3 x4 : (⟨Cert.ReferenceIdeal.S128x128, .f32⟩ : BufTy).Contents (Elt Ideal))
    (x5 : (⟨Cert.ReferenceIdeal.S128, .f32⟩ : BufTy).Contents (Elt Ideal))
    (x6 x7 : (⟨Cert.ReferenceIdeal.S128x128, .f32⟩ : BufTy).Contents (Elt Ideal))
    (x8 : (⟨Cert.ReferenceIdeal.S128, .f32⟩ : BufTy).Contents (Elt Ideal))
    (x9 x10 : (⟨Cert.ReferenceIdeal.S128x64, .f32⟩ : BufTy).Contents (Elt Ideal))
    (x11 : (⟨Cert.ReferenceIdeal.S64, .f32⟩ : BufTy).Contents (Elt Ideal))
    (h2 : A128) (hh2 : ∀ i, IsFin (h2 i)) (hx10 : ∀ i, IsFin (x10 i))
    (e46 : h2 = val_main_v46 (F := Ideal) x0 x1 x2 x3 x4 x5 x6 x7 x8) :
    OUT h2 x1 x2 x9 x10 x11 = val_main_v64 (F := Ideal) x0 x1 x2 x3 x4 x5 x6 x7 x8 x9 x10 x11 := by
  subst e46
  funext i
  obtain ⟨n, j, rfl⟩ : ∃ (n : Fin 100000) (j : Fin 64), i = ix2 n j := ⟨i 0, i 1, eq_ix2 i⟩
  rw [R3]
  unfold OUT
  rw [finalK_ix2]
  have hv56 : (val_main_v56 (F := Ideal) x0 x1 x2 x3 x4 x5 x6 x7 x8) = aggOf128 (val_main_v46 (F := Ideal) x0 x1 x2 x3 x4 x5 x6 x7 x8) x1 x2 :=
    agg3_eq x0 x1 x2 x3 x4 x5 x6 x7 x8
  have hagg : ∀ (n : Fin 100000) (k : Fin 128),
      (val_main_v56 (F := Ideal) x0 x1 x2 x3 x4 x5 x6 x7 x8) (ix2 n k) = edgeSum (val_main_v46 (F := Ideal) x0 x1 x2 x3 x4 x5 x6 x7 x8) (srcIdx x1) (dstIdx x2) n k := by
    intro n k
    rw [hv56]
    exact aggOf128_apply _ x1 x2 n k
  have hb : ∀ j : Fin 64, row64 x11 (ix2 0 j) = x11 (ix1 j) := fun j => shapeCast_a_1a_apply x11 _ 0 j
  exact (final_interchange (val_main_v46 (F := Ideal) x0 x1 x2 x3 x4 x5 x6 x7 x8) (srcIdx x1) (dstIdx x2) (dOf x2) x9 x10 x11 (row64 x11) hb n j
    (d_nonneg x2 n) (d_ne_top x2 n) hh2 hx10 (val_main_v56 (F := Ideal) x0 x1 x2 x3 x4 x5 x6 x7 x8) hagg
    (aggOf64 (projK (val_main_v46 (F := Ideal) x0 x1 x2 x3 x4 x5 x6 x7 x8) x10) x1 x2) (fun n j => aggOf64_apply _ x1 x2 n j)).symm

end Cert.Sage

end
-- ==== Proof.PreFinite.lean ====
/-
  THE PRECONDITION "EVERY FLOAT INPUT IS FINITE", DECODED.

  The precondition is a printed predicate over the twelve input arrays: for each of the ten float arrays it computes
  "all entries x have |x| < +infinity" — the absolute value, a comparison with the f32 pattern 0x7F800000 (which denotes
  +infinity), and an and-reduction over every axis starting from the bit 1 — and takes the conjunction of the ten bits;
  the claim's hypothesis says the resulting bit is 1 on every device.

  At the ideal instance a float is an extended real and |x| is max x (-x). An and-reduction that ends in 1 met only
  1s, so every entry x of every float array satisfies max x (-x) < +infinity; hence x is neither +infinity nor
  -infinity: it is a real number.

  The statements: the f32 pattern 0x7F800000 is +infinity (ofBits_inf_f32); max x (-x) < +infinity says x is finite
  (isFin_of_abs_lt); one and-reduction read back at an entry (isFin_of_all); all ten float inputs at once (fin_args)
  and one theorem per float input (fin_arg0, fin_arg3, ..., fin_arg11).
-/
import proofs.«179563_j74792560492685_2_alg».proof.Defs
import proofs.«179563_j74792560492685_2_alg».proof.Proof.Gen.Pre_finite_inputs
import proofs.«179563_j74792560492685_2_alg».proof.Proof.ERealLaws
import Idealize.ShloMosaic.Lib.ReduceAll
import Idealize.ShloMosaic.Lib.ValueIdx

noncomputable section

namespace Cert.Sage.PreFinite

open Idealize.ShloMosaic Idealize.ShloMosaic.ValueIdx Idealize.SL.Sem Cert.Lib.ERealLaws

/-- The scalar shape has one index. -/
instance subsingleton_scalar_idx : Subsingleton Cert.Pre_finite_inputs.S_.Idx :=
  ⟨fun a b => funext fun d => d.elim0⟩

/-- The f32 pattern 0x7F800000 denotes +infinity. -/
theorem ofBits_inf_f32 : Ideal.ofBits .f32 0x7F800000#32 = (⊤ : EReal) := by
  simp [Ideal.ofBits, Ideal.ieee]

/-- An extended real whose absolute value max x (-x) compares below the f32 +infinity is neither infinity. -/
theorem isFin_of_abs_lt (x : EReal)
    (h : Ideal.cmp .olt (max x (-x)) (Ideal.ofBits .f32 0x7F800000#32) = 1#1) : IsFin x := by
  rw [ofBits_inf_f32] at h
  have hlt : max x (-x) < ⊤ := by
    by_contra hn
    simp [Ideal.cmp, hn] at h
  constructor
  · rintro rfl
    simp at hlt
  · rintro rfl
    simp at hlt

/-- "All entries have |x| < +infinity", computed as an and-reduction over every axis from the bit 1 and found to be
    1, makes every entry finite. -/
theorem isFin_of_all {s : Shape} {axes : List (Fin s.rank)}
    (h : s.ReducesTo axes Cert.Pre_finite_inputs.S_) (hu : 0 < Cert.Pre_finite_inputs.S_.numel)
    (hb : Cert.Pre_finite_inputs.S_.BroadcastsInDim s (![] : Fin 0 → Fin s.rank)) (x : FVec Ideal s .f32)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) h hu ix0 = 1#1)
    (i : s.Idx) : IsFin (x i) :=
  isFin_of_abs_lt (x i) (Host.reduce_andi_all _ _ h hu ix0 e i)

variable [hPre_finite_inputs : Cert.Pre_finite_inputs.Facts]

/-- Under the precondition every entry of every float input array is a finite extended real, on every device. -/
theorem fin_args (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : Cert.Pre_finite_inputs.S100000x128.Idx, IsFin (m ((c.tc : Thread Cert.KernelIdeal.nD Cert.KernelIdeal.τ).loc Cert.KernelIdeal.main_arg0) i))
      ∧ (∀ i : Cert.Pre_finite_inputs.S128x128.Idx, IsFin (m ((c.tc : Thread Cert.KernelIdeal.nD Cert.KernelIdeal.τ).loc Cert.KernelIdeal.main_arg3) i))
      ∧ (∀ i : Cert.Pre_finite_inputs.S128x128.Idx, IsFin (m ((c.tc : Thread Cert.KernelIdeal.nD Cert.KernelIdeal.τ).loc Cert.KernelIdeal.main_arg4) i))
      ∧ (∀ i : Cert.Pre_finite_inputs.S128.Idx, IsFin (m ((c.tc : Thread Cert.KernelIdeal.nD Cert.KernelIdeal.τ).loc Cert.KernelIdeal.main_arg5) i))
      ∧ (∀ i : Cert.Pre_finite_inputs.S128x128.Idx, IsFin (m ((c.tc : Thread Cert.KernelIdeal.nD Cert.KernelIdeal.τ).loc Cert.KernelIdeal.main_arg6) i))
      ∧ (∀ i : Cert.Pre_finite_inputs.S128x128.Idx, IsFin (m ((c.tc : Thread Cert.KernelIdeal.nD Cert.KernelIdeal.τ).loc Cert.KernelIdeal.main_arg7) i))
      ∧ (∀ i : Cert.Pre_finite_inputs.S128.Idx, IsFin (m ((c.tc : Thread Cert.KernelIdeal.nD Cert.KernelIdeal.τ).loc Cert.KernelIdeal.main_arg8) i))
      ∧ (∀ i : Cert.Pre_finite_inputs.S128x64.Idx, IsFin (m ((c.tc : Thread Cert.KernelIdeal.nD Cert.KernelIdeal.τ).loc Cert.KernelIdeal.main_arg9) i))
      ∧ (∀ i : Cert.Pre_finite_inputs.S128x64.Idx, IsFin (m ((c.tc : Thread Cert.KernelIdeal.nD Cert.KernelIdeal.τ).loc Cert.KernelIdeal.main_arg10) i))
      ∧ (∀ i : Cert.Pre_finite_inputs.S64.Idx, IsFin (m ((c.tc : Thread Cert.KernelIdeal.nD Cert.KernelIdeal.τ).loc Cert.KernelIdeal.main_arg11) i)) := by
  have e := congrFun (hpre c) ix0
  dsimp only [Cert.Pre_finite_inputs.fn, Cert.Pre_finite_inputs.fn_part1, Cert.Pre_finite_inputs.fn_part2] at e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  exact ⟨isFin_of_all _ _ _ _ h0, isFin_of_all _ _ _ _ h3, isFin_of_all _ _ _ _ h4, isFin_of_all _ _ _ _ h5,
    isFin_of_all _ _ _ _ h6, isFin_of_all _ _ _ _ h7, isFin_of_all _ _ _ _ h8, isFin_of_all _ _ _ _ h9,
    isFin_of_all _ _ _ _ h10, isFin_of_all _ _ _ _ h11⟩

/-- Under the precondition every entry of float input 0 is a finite extended real. -/
theorem fin_arg0 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S100000x128.Idx) :
    IsFin (m ((c.tc : Thread Cert.KernelIdeal.nD Cert.KernelIdeal.τ).loc Cert.KernelIdeal.main_arg0) i) :=
  (fin_args m hpre c).1 i

/-- Under the precondition every entry of float input 3 is a finite extended real. -/
theorem fin_arg3 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S128x128.Idx) :
    IsFin (m ((c.tc : Thread Cert.KernelIdeal.nD Cert.KernelIdeal.τ).loc Cert.KernelIdeal.main_arg3) i) :=
  (fin_args m hpre c).2.1 i

/-- Under the precondition every entry of float input 4 is a finite extended real. -/
theorem fin_arg4 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S128x128.Idx) :
    IsFin (m ((c.tc : Thread Cert.KernelIdeal.nD Cert.KernelIdeal.τ).loc Cert.KernelIdeal.main_arg4) i) :=
  (fin_args m hpre c).2.2.1 i

/-- Under the precondition every entry of float input 5 is a finite extended real. -/
theorem fin_arg5 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S128.Idx) :
    IsFin (m ((c.tc : Thread Cert.KernelIdeal.nD Cert.KernelIdeal.τ).loc Cert.KernelIdeal.main_arg5) i) :=
  (fin_args m hpre c).2.2.2.1 i

/-- Under the precondition every entry of float input 6 is a finite extended real. -/
theorem fin_arg6 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S128x128.Idx) :
    IsFin (m ((c.tc : Thread Cert.KernelIdeal.nD Cert.KernelIdeal.τ).loc Cert.KernelIdeal.main_arg6) i) :=
  (fin_args m hpre c).2.2.2.2.1 i

/-- Under the precondition every entry of float input 7 is a finite extended real. -/
theorem fin_arg7 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S128x128.Idx) :
    IsFin (m ((c.tc : Thread Cert.KernelIdeal.nD Cert.KernelIdeal.τ).loc Cert.KernelIdeal.main_arg7) i) :=
  (fin_args m hpre c).2.2.2.2.2.1 i

/-- Under the precondition every entry of float input 8 is a finite extended real. -/
theorem fin_arg8 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S128.Idx) :
    IsFin (m ((c.tc : Thread Cert.KernelIdeal.nD Cert.KernelIdeal.τ).loc Cert.KernelIdeal.main_arg8) i) :=
  (fin_args m hpre c).2.2.2.2.2.2.1 i

/-- Under the precondition every entry of float input 9 is a finite extended real. -/
theorem fin_arg9 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S128x64.Idx) :
    IsFin (m ((c.tc : Thread Cert.KernelIdeal.nD Cert.KernelIdeal.τ).loc Cert.KernelIdeal.main_arg9) i) :=
  (fin_args m hpre c).2.2.2.2.2.2.2.1 i

/-- Under the precondition every entry of float input 10 is a finite extended real. -/
theorem fin_arg10 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S128x64.Idx) :
    IsFin (m ((c.tc : Thread Cert.KernelIdeal.nD Cert.KernelIdeal.τ).loc Cert.KernelIdeal.main_arg10) i) :=
  (fin_args m hpre c).2.2.2.2.2.2.2.2.1 i

/-- Under the precondition every entry of float input 11 is a finite extended real. -/
theorem fin_arg11 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S64.Idx) :
    IsFin (m ((c.tc : Thread Cert.KernelIdeal.nD Cert.KernelIdeal.τ).loc Cert.KernelIdeal.main_arg11) i) :=
  (fin_args m hpre c).2.2.2.2.2.2.2.2.2 i

end Cert.Sage.PreFinite

end
-- ==== Proof.Final.lean ====
/-
  The idealized kernel and the idealized reference compute the same array.

  Both are three layers of one network. In each hidden layer the reference scales the neighbours' sum by the
  reciprocal degree d before multiplying it by the neighbour weight matrix, the kernel after: d is a nonnegative finite
  number, so multiplying by it distributes over the 128-term sum, and the two agree whatever the other values are. In
  the last layer the kernel multiplies the node features by the neighbour weight matrix BEFORE summing them over the
  edges: exchanging the sum over the edges with the sum over the contraction positions distributes a weight of either
  sign over the edge sum, which is sound because every value involved is a real number — the inputs by the
  precondition, the first and second hidden layers' outputs because sums, products and maxima of reals are real.
-/
import proofs.«179563_j74792560492685_2_alg».proof.Proof.KernelValue
import proofs.«179563_j74792560492685_2_alg».proof.Proof.LayerEq
import proofs.«179563_j74792560492685_2_alg».proof.Proof.LastLayer
import proofs.«179563_j74792560492685_2_alg».proof.Proof.PreFinite
import proofs.«179563_j74792560492685_2_alg».proof.Proof.Gen.ReferenceIdeal.Run

set_option maxRecDepth 16384

noncomputable section

namespace Cert.Sage.Final

open Idealize.ShloMosaic Idealize.ShloMosaic.TcCoe Idealize.SL.Sem
open Cert.KernelIdeal Cert.KernelIdeal.Gen Cert.KernelIdeal.Fold Cert.Sage Cert.Sage.Ref Cert.Sage.PreFinite Cert.Lib.ERealLaws

variable (m : (ℓ : Loc nD τ sig) → Buf (Elt Ideal) ℓ) (c : Dev nD)

set_option maxHeartbeats 8000000 in
/-- The kernel's result, under the precondition, is the reference's result term at the kernel's argument arrays. -/
theorem out_is_reference (hpre : Cert.Pre_KernelIdeal m) :
    outK m c = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have e1 := h1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
  have e2 := h2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
  have f1 : ∀ i, IsFin (H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i) :=
    isFin_H1 _ _ _ _ _ _ (fin_arg0 m hpre c) (fin_arg3 m hpre c) (fin_arg4 m hpre c) (fin_arg5 m hpre c)
  have f2 : ∀ i, IsFin (H2 (H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) i) :=
    isFin_H2 _ _ _ _ _ _ f1 (fin_arg6 m hpre c) (fin_arg7 m hpre c) (fin_arg8 m hpre c)
  exact out_eq _ _ _ _ _ _ _ _ _ _ _ _ _ f2 (fin_arg10 m hpre c) (by
    change H2 (H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) = _
    rw [e1]; exact e2)

end Cert.Sage.Final

end
-- ==== Proof.lean ====
/-
  A three-layer graph network (GraphSAGE with mean aggregation over 100000 nodes and 1600000 edges): the kernel against
  its reference, at exact extended-real values.

  Each layer maps node features h to  h · Ws + mean_N(h) · Wn + b,  mean_N(h) the average of a node's in-neighbours'
  rows (their sum times the reciprocal d of the in-degree clamped at one), the two hidden layers clipping at zero.
  The kernel runs each layer's dense part as a pipelined region over blocks of 5000 nodes and leaves the gather along
  the edges and the accumulating scatter on the host, as the reference does. It differs from the reference in three
  arrangements, none of which changes the value:
    · the matrix products take their operands rounded to a shorter float format and accumulate into zero: at exact
      values rounding is the identity and the product is the plain sum over the 128 contraction positions;
    · in the hidden layers d scales the product (sum · Wn) instead of the sum: d is nonnegative and finite, so
      x ↦ x · d is additive on the extended reals, and multiplication is commutative and associative;
    · in the last layer the node features are multiplied by Wn before they are summed over the edges: exchanging the
      two sums distributes a weight of either sign over the edge sum, which holds because every value is a real
      number — the inputs by the precondition, each hidden layer's output as sums, products and maxima of reals.
  The frames: the two kernel programs terminate without a fault and leave their arguments unchanged by their
  several-region frame theorems; the reference's frame is its run with the result dropped. The preservation claim, as
  the statement gives it, is the trivial proposition (the list of rewrites it restates is empty).
-/
import proofs.«179563_j74792560492685_2_alg».proof.Proof.Final
import proofs.«179563_j74792560492685_2_alg».proof.Proof.PatchedKernelFrame
import proofs.«179563_j74792560492685_2_alg».proof.Proof.Gen.Kernel
import proofs.«179563_j74792560492685_2_alg».proof.Proof.Gen.KernelIdeal
import proofs.«179563_j74792560492685_2_alg».proof.Proof.Gen.ReferenceIdeal
import proofs.«179563_j74792560492685_2_alg».proof.Proof.Gen.Pre_finite_inputs
import proofs.«179563_j74792560492685_2_alg».proof.Proof.Gen.ReferenceIdeal.Run
import proofs.«179563_j74792560492685_2_alg».proof.Proof.Gen.ReferenceIdeal.Read
import Idealize.ShloMosaic.Adequacy
import Idealize.ShloMosaic.Init

set_option maxRecDepth 16384

noncomputable section

namespace Cert.Proof

open Idealize.ShloMosaic Idealize.SL.Sem

/-- The kernel as printed runs to the end and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 8000000 in
/-- From memories agreeing on the arguments both programs end with the same result: the kernel's fold of host
    stretches and regions ends at the three-layer expression of its arguments, the reference's run at its composed
    term, and under the precondition the two are one array. -/
theorem algebraic : Cert.algebraic_KernelIdeal_ReferenceIdeal := by
  intro m ρ m' ρ' hpre hagree
  refine ⟨fun c => Cert.KernelIdeal.Fold.outK m c, ?_, ?_⟩
  · exact (θ_run Cert.KernelIdeal.defs _ _).mono
      (fun r h c => ⟨(h c).1.trans (Cert.KernelIdeal.Fold.v7_51 m ρ c), (h c).2⟩)
      (Cert.KernelIdeal.Gen.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq]
    obtain ⟨a0, a1, a2, a3, a4, a5, a6, a7, a8, a9, a10, a11⟩ := hagree c
    rw [a0, a1, a2, a3, a4, a5, a6, a7, a8, a9, a10, a11]
    exact (Cert.Sage.Final.out_is_reference m c hpre).symm

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
